-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S20000 : Shape := ⟨1, ![20000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S256 .f32) (main_arg7 : FVec F S256x128 .f32) (main_arg8 : FVec F S128 .f32) (main_arg9 : FVec F S128x2 .f32) (main_arg10 : FVec F S2 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S20000x128 .f32) (main_arg1 : IVec S2x320000 32) (main_arg2 : IVec S20000 32) (main_arg3 : FVec F S128x512 .f32) (main_arg4 : FVec F S512 .f32) (main_arg5 : FVec F S512x256 .f32) (main_arg6 : FVec F S256 .f32) (main_arg7 : FVec F S256x128 .f32) (main_arg8 : FVec F S128 .f32) (main_arg9 : FVec F S128x2 .f32) (main_arg10 : FVec F S2 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_arg9 main_arg10 main_v13 main_v16
-- ==== Kernel.lean ====
abbrev S20000x128 : Shape := ⟨2, ![20000, 128]⟩
abbrev S2x320000 : Shape := ⟨2, ![2, 320000]⟩
abbrev S20000 : Shape := ⟨1, ![20000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x512 : Shape := ⟨2, ![20000, 512]⟩
abbrev S2000x128 : Shape := ⟨2, ![2000, 128]⟩
abbrev S2000x512 : Shape := ⟨2, ![2000, 512]⟩
abbrev S340000x512 : Shape := ⟨2, ![340000, 512]⟩
abbrev S1x512 : Shape := ⟨2, ![1, 512]⟩
abbrev S20000x256 : Shape := ⟨2, ![20000, 256]⟩
abbrev S2000x256 : Shape := ⟨2, ![2000, 256]⟩
abbrev S340000x256 : Shape := ⟨2, ![340000, 256]⟩
abbrev S1x256 : Shape := ⟨2, ![1, 256]⟩
abbrev S340000x128 : Shape := ⟨2, ![340000, 128]⟩
abbrev S1x128 : Shape := ⟨2, ![1, 128]⟩
abbrev S64x128 : Shape := ⟨2, ![64, 128]⟩
abbrev S20000x1 : Shape := ⟨2, ![20000, 1]⟩
abbrev S64 : Shape := ⟨1, ![64]⟩
abbrev S64x1 : Shape := ⟨2, ![64, 1]⟩
abbrev S1x2 : Shape := ⟨2, ![1, 2]⟩
abbrev S64x2 : Shape := ⟨2, ![64, 2]⟩

abbrev nBuf : Space → Nat
  | .hbm => 133
  | .vmem => 21
  | .smem => 0
  | _ => 0

abbrev hbmTy0_0 (i : Nat) : BufTy := match i % 128 with
  | 0 => ⟨S20000x128, .f32⟩
  | 1 => ⟨S2x320000, .i32⟩
  | 2 => ⟨S20000, .i32⟩
  | 3 => ⟨S128x512, .f32⟩
  | 4 => ⟨S512, .f32⟩
  | 5 => ⟨S512x256, .f32⟩
  | 6 => ⟨S256, .f32⟩
  | 7 => ⟨S256x128, .f32⟩
  | 8 => ⟨S128, .f32⟩
  | 9 => ⟨S128x2, .f32⟩
  | 10 => ⟨S2, .f32⟩
  | 11 => ⟨S20000, .i32⟩
  | 12 => ⟨S1x320000, .i32⟩
  | 13 => ⟨S320000, .i32⟩
  | 14 => ⟨S340000, .i32⟩
  | 15 => ⟨S1x320000, .i32⟩
  | 16 => ⟨S320000, .i32⟩
  | 17 => ⟨S340000, .i32⟩
  | 18 => ⟨S_, .f32⟩
  | 19 => ⟨S20000, .f32⟩
  | 20 => ⟨S_, .i32⟩
  | 21 => ⟨S340000, .i32⟩
  | 22 => ⟨S340000, .i1⟩
  | 23 => ⟨S_, .i32⟩
  | 24 => ⟨S340000, .i32⟩
  | 25 => ⟨S340000, .i32⟩
  | 26 => ⟨S340000, .i32⟩
  | 27 => ⟨S340000x1, .i32⟩
  | 28 => ⟨S_, .f32⟩
  | 29 => ⟨S340000, .f32⟩
  | 30 => ⟨S20000, .f32⟩
  | 31 => ⟨S_, .f32⟩
  | 32 => ⟨S20000, .f32⟩
  | 33 => ⟨S20000, .i1⟩
  | 34 => ⟨S20000, .f32⟩
  | 35 => ⟨S_, .f32⟩
  | 36 => ⟨S_, .f32⟩
  | 37 => ⟨S20000, .f32⟩
  | 38 => ⟨S20000, .f32⟩
  | 39 => ⟨S_, .i32⟩
  | 40 => ⟨S340000, .i32⟩
  | 41 => ⟨S340000, .i1⟩
  | 42 => ⟨S_, .i32⟩
  | 43 => ⟨S340000, .i32⟩
  | 44 => ⟨S340000, .i32⟩
  | 45 => ⟨S340000, .i32⟩
  | 46 => ⟨S340000x1, .i32⟩
  | 47 => ⟨S340000, .f32⟩
  | 48 => ⟨S_, .i32⟩
  | 49 => ⟨S340000, .i32⟩
  | 50 => ⟨S340000, .i1⟩
  | 51 => ⟨S_, .i32⟩
  | 52 => ⟨S340000, .i32⟩
  | 53 => ⟨S340000, .i32⟩
  | 54 => ⟨S340000, .i32⟩
  | 55 => ⟨S340000x1, .i32⟩
  | 56 => ⟨S340000, .f32⟩
  | 57 => ⟨S340000, .f32⟩
  | 58 => ⟨S20000x512, .f32⟩
  | 59 => ⟨S_, .i32⟩
  | 60 => ⟨S340000, .i32⟩
  | 61 => ⟨S340000, .i1⟩
  | 62 => ⟨S_, .i32⟩
  | 63 => ⟨S340000, .i32⟩
  | 64 => ⟨S340000, .i32⟩
  | 65 => ⟨S340000, .i32⟩
  | 66 => ⟨S340000x1, .i32⟩
  | 67 => ⟨S340000x512, .f32⟩
  | 68 => ⟨S340000x1, .f32⟩
  | 69 => ⟨S340000x512, .f32⟩
  | 70 => ⟨S340000x512, .f32⟩
  | 71 => ⟨S_, .f32⟩
  | 72 => ⟨S20000x512, .f32⟩
  | 73 => ⟨S340000x1, .i32⟩
  | 74 => ⟨S20000x512, .f32⟩
  | 75 => ⟨S1x512, .f32⟩
  | 76 => ⟨S20000x256, .f32⟩
  | 77 => ⟨S_, .i32⟩
  | 78 => ⟨S340000, .i32⟩
  | 79 => ⟨S340000, .i1⟩
  | 80 => ⟨S_, .i32⟩
  | 81 => ⟨S340000, .i32⟩
  | 82 => ⟨S340000, .i32⟩
  | 83 => ⟨S340000, .i32⟩
  | 84 => ⟨S340000x1, .i32⟩
  | 85 => ⟨S340000x256, .f32⟩
  | 86 => ⟨S340000x1, .f32⟩
  | 87 => ⟨S340000x256, .f32⟩
  | 88 => ⟨S340000x256, .f32⟩
  | 89 => ⟨S_, .f32⟩
  | 90 => ⟨S20000x256, .f32⟩
  | 91 => ⟨S340000x1, .i32⟩
  | 92 => ⟨S20000x256, .f32⟩
  | 93 => ⟨S1x256, .f32⟩
  | 94 => ⟨S20000x128, .f32⟩
  | 95 => ⟨S_, .i32⟩
  | 96 => ⟨S340000, .i32⟩
  | 97 => ⟨S340000, .i1⟩
  | 98 => ⟨S_, .i32⟩
  | 99 => ⟨S340000, .i32⟩
  | 100 => ⟨S340000, .i32⟩
  | 101 => ⟨S340000, .i32⟩
  | 102 => ⟨S340000x1, .i32⟩
  | 103 => ⟨S340000x128, .f32⟩
  | 104 => ⟨S340000x1, .f32⟩
  | 105 => ⟨S340000x128, .f32⟩
  | 106 => ⟨S340000x128, .f32⟩
  | 107 => ⟨S_, .f32⟩
  | 108 => ⟨S20000x128, .f32⟩
  | 109 => ⟨S340000x1, .i32⟩
  | 110 => ⟨S20000x128, .f32⟩
  | 111 => ⟨S1x128, .f32⟩
  | 112 => ⟨S20000x128, .f32⟩
  | 113 => ⟨S20000x128, .f32⟩
  | 114 => ⟨S_, .f32⟩
  | 115 => ⟨S64x128, .f32⟩
  | 116 => ⟨S20000x1, .i32⟩
  | 117 => ⟨S64x128, .f32⟩
  | 118 => ⟨S_, .f32⟩
  | 119 => ⟨S20000, .f32⟩
  | 120 => ⟨S_, .f32⟩
  | 121 => ⟨S64, .f32⟩
  | 122 => ⟨S20000x1, .i32⟩
  | 123 => ⟨S64, .f32⟩
  | 124 => ⟨S_, .f32⟩
  | 125 => ⟨S_, .f32⟩
  | 126 => ⟨S64, .f32⟩
  | 127 => ⟨S64, .f32⟩
  | _ => ⟨S20000x128, .f32⟩

abbrev hbmTy0_1 (i : Nat) : BufTy := match i % 128 with
  | 0 => ⟨S64x1, .f32⟩
  | 1 => ⟨S64x128, .f32⟩
  | 2 => ⟨S64x128, .f32⟩
  | 3 => ⟨S1x2, .f32⟩
  | 4 => ⟨S64x2, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S512x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S256x128, .f32⟩
  | .local _ .vmem, ⟨15, _⟩ => ⟨S2000x128, .f32⟩
  | .local _ .vmem, ⟨16, _⟩ => ⟨S2000x128, .f32⟩
  | .local _ .vmem, ⟨17, _⟩ => ⟨S64x128, .f32⟩
  | .local _ .vmem, ⟨18, _⟩ => ⟨S128x2, .f32⟩
  | .local _ .vmem, ⟨19, _⟩ => ⟨S1x2, .f32⟩
  | .local _ .vmem, ⟨20, _⟩ => ⟨S64x2, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_20 : Ref sig .tc := ⟨.hbm, 124, rfl⟩
abbrev main_call1_v0 : Ref sig .tc := ⟨.hbm, 125, rfl⟩
abbrev main_call1_v1 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem2_0 : DmaSem sig := 19
abbrev cc3_sem3_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S_S340000 : S_.BroadcastsInDim S340000 (![] : Fin 0 → Fin S340000.rank)
  bcast_S340000_S340000x1_0 : S340000.BroadcastsInDim S340000x1 (![0] : Fin 1 → Fin S340000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S2000x512_S2000x512_0_0 : ∀ a, (![0, 0] : Fin 2 → Nat) a + S2000x512.size a ≤ S2000x512.size a
  h_S2000x512 : 0 < S2000x512.numel
  bcast_S340000x1_S340000x512_0_1 : S340000x1.BroadcastsInDim S340000x512 (![0, 1] : Fin 2 → Fin S340000x512.rank)
  bcast_S_S20000x512 : S_.BroadcastsInDim S20000x512 (![] : Fin 0 → Fin S20000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  bcast_S340000x1_S340000x128_0_1 : S340000x1.BroadcastsInDim S340000x128 (![0, 1] : Fin 2 → Fin S340000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S64x128 : S_.BroadcastsInDim S64x128 (![] : Fin 0 → Fin S64x128.rank)
  bcast_S20000_S20000x1_0 : S20000.BroadcastsInDim S20000x1 (![0] : Fin 1 → Fin S20000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S2000x128_S128x512_S2000x512_1_0_0_1_n_n_wf : DotDims.WF S2000x128 S128x512 S2000x512 [1] [0] [0] [1] [] []
  gather_S20000x512_S340000x1_S340000x512_1_0_n_n_0_1_1512_wf : GatherDims.WF S20000x512 S340000x1 S340000x512 [1] [0] [] [0] [] 1 ![1, 512]
  scatter_S20000x512_S340000x1_S340000x512_1_0_0_1_wf : ScatterDims.WF S20000x512 S340000x1 S340000x512 [1] [0] [0] 1
  dot_S2000x512_S512x256_S2000x256_1_0_0_1_n_n_wf : DotDims.WF S2000x512 S512x256 S2000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S2000x256_S256x128_S2000x128_1_0_0_1_n_n_wf : DotDims.WF S2000x256 S256x128 S2000x128 [1] [0] [0] [1] [] []
  gather_S20000x128_S340000x1_S340000x128_1_0_n_n_0_1_1128_wf : GatherDims.WF S20000x128 S340000x1 S340000x128 [1] [0] [] [0] [] 1 ![1, 128]
  scatter_S20000x128_S340000x1_S340000x128_1_0_0_1_wf : ScatterDims.WF S20000x128 S340000x1 S340000x128 [1] [0] [0] 1
  scatter_S64x128_S20000x1_S20000x128_1_0_0_1_wf : ScatterDims.WF S64x128 S20000x1 S20000x128 [1] [0] [0] 1
  scatter_S64_S20000x1_S20000_n_0_0_1_wf : ScatterDims.WF S64 S20000x1 S20000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S20000x128.size a
  hwx2_3 : ∀ i : grid2.Coords, EltTy.bits .f32 = 32 ∨ (Rect.block (s := S20000x128) S2000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S20000x512_S340000x1_S340000x512_1_0_n_n_0_1_1512 : GatherDims S20000x512 S340000x1 S340000x512 where
  offsetDims := [1]
  collapsedSliceDims := [0]
  operandBatchingDims := []
  startIndicesBatchingDims := []
  startIndexMap := [0]
  indexVectorDim := 1
  sliceSizes := ![1, 512]
  wf := gather_S20000x512_S340000x1_S340000x512_1_0_n_n_0_1_1512_wf
def scatter_S20000x512_S340000x1_S340000x512_1_0_0_1 : ScatterDims S20000x512 S340000x1 S340000x512 where
  updateWindowDims := [1]
  insertedWindowDims := [0]
  scatterDimsToOperandDims := [0]
  indexVectorDim := 1
  wf := scatter_S20000x512_S340000x1_S340000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S20000x128_S340000x1_S340000x128_1_0_n_n_0_1_1128 : GatherDims S20000x128 S340000x1 S340000x128 where
  offsetDims := [1]
  collapsedSliceDims := [0]
  operandBatchingDims := []
  startIndicesBatchingDims := []
  startIndexMap := [0]
  indexVectorDim := 1
  sliceSizes := ![1, 128]
  wf := gather_S20000x128_S340000x1_S340000x128_1_0_n_n_0_1_1128_wf
def scatter_S20000x128_S340000x1_S340000x128_1_0_0_1 : ScatterDims S20000x128 S340000x1 S340000x128 where
  updateWindowDims := [1]
  insertedWindowDims := [0]
  scatterDimsToOperandDims := [0]
  indexVectorDim := 1
  wf := scatter_S20000x128_S340000x1_S340000x128_1_0_0_1_wf
def scatter_S64x128_S20000x1_S20000x128_1_0_0_1 : ScatterDims S64x128 S20000x1 S20000x128 where
  updateWindowDims := [1]
  insertedWindowDims := [0]
  scatterDimsToOperandDims := [0]
  indexVectorDim := 1
  wf := scatter_S64x128_S20000x1_S20000x128_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v92) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S64x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S20000 : Shape := ⟨1, ![20000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S20000x512 : Shape := ⟨2, ![20000, 512]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S340000x512 : Shape := ⟨2, ![340000, 512]⟩
abbrev S1x512 : Shape := ⟨2, ![1, 512]⟩
abbrev S20000x256 : Shape := ⟨2, ![20000, 256]⟩
abbrev S340000x256 : Shape := ⟨2, ![340000, 256]⟩
abbrev S1x256 : Shape := ⟨2, ![1, 256]⟩
abbrev S340000x128 : Shape := ⟨2, ![340000, 128]⟩
abbrev S1x128 : Shape := ⟨2, ![1, 128]⟩
abbrev S64x128 : Shape := ⟨2, ![64, 128]⟩
abbrev S20000x1 : Shape := ⟨2, ![20000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 239
  | .vmem => 0
  | .smem => 0
  | _ => 0

abbrev hbmTy0_0 (i : Nat) : BufTy := match i % 128 with
  | 0 => ⟨S20000x128, .f32⟩
  | 1 => ⟨S2x320000, .i32⟩
  | 2 => ⟨S20000, .i32⟩
  | 3 => ⟨S128x512, .f32⟩
  | 4 => ⟨S512, .f32⟩
  | 5 => ⟨S512x256, .f32⟩
  | 6 => ⟨S256, .f32⟩
  | 7 => ⟨S256x128, .f32⟩
  | 8 => ⟨S128, .f32⟩
  | 9 => ⟨S128x2, .f32⟩
  | 10 => ⟨S2, .f32⟩
  | 11 => ⟨S20000x512, .f32⟩
  | 12 => ⟨S20000, .i32⟩
  | 13 => ⟨S1x320000, .i32⟩
  | 14 => ⟨S320000, .i32⟩
  | 15 => ⟨S340000, .i32⟩
  | 16 => ⟨S1x320000, .i32⟩
  | 17 => ⟨S320000, .i32⟩
  | 18 => ⟨S340000, .i32⟩
  | 19 => ⟨S_, .f32⟩
  | 20 => ⟨S20000, .f32⟩
  | 21 => ⟨S_, .i32⟩
  | 22 => ⟨S340000, .i32⟩
  | 23 => ⟨S340000, .i1⟩
  | 24 => ⟨S_, .i32⟩
  | 25 => ⟨S340000, .i32⟩
  | 26 => ⟨S340000, .i32⟩
  | 27 => ⟨S340000, .i32⟩
  | 28 => ⟨S340000x1, .i32⟩
  | 29 => ⟨S_, .f32⟩
  | 30 => ⟨S340000, .f32⟩
  | 31 => ⟨S20000, .f32⟩
  | 32 => ⟨S_, .f32⟩
  | 33 => ⟨S20000, .f32⟩
  | 34 => ⟨S20000, .i1⟩
  | 35 => ⟨S20000, .f32⟩
  | 36 => ⟨S_, .f32⟩
  | 37 => ⟨S_, .f32⟩
  | 38 => ⟨S20000, .f32⟩
  | 39 => ⟨S20000, .f32⟩
  | 40 => ⟨S_, .i32⟩
  | 41 => ⟨S340000, .i32⟩
  | 42 => ⟨S340000, .i1⟩
  | 43 => ⟨S_, .i32⟩
  | 44 => ⟨S340000, .i32⟩
  | 45 => ⟨S340000, .i32⟩
  | 46 => ⟨S340000, .i32⟩
  | 47 => ⟨S340000x1, .i32⟩
  | 48 => ⟨S340000, .f32⟩
  | 49 => ⟨S_, .i32⟩
  | 50 => ⟨S340000, .i32⟩
  | 51 => ⟨S340000, .i1⟩
  | 52 => ⟨S_, .i32⟩
  | 53 => ⟨S340000, .i32⟩
  | 54 => ⟨S340000, .i32⟩
  | 55 => ⟨S340000, .i32⟩
  | 56 => ⟨S340000x1, .i32⟩
  | 57 => ⟨S340000, .f32⟩
  | 58 => ⟨S340000, .f32⟩
  | 59 => ⟨S_, .i32⟩
  | 60 => ⟨S340000, .i32⟩
  | 61 => ⟨S340000, .i1⟩
  | 62 => ⟨S_, .i32⟩
  | 63 => ⟨S340000, .i32⟩
  | 64 => ⟨S340000, .i32⟩
  | 65 => ⟨S340000, .i32⟩
  | 66 => ⟨S340000x1, .i32⟩
  | 67 => ⟨S340000x512, .f32⟩
  | 68 => ⟨S340000x1, .f32⟩
  | 69 => ⟨S340000x512, .f32⟩
  | 70 => ⟨S340000x512, .f32⟩
  | 71 => ⟨S_, .f32⟩
  | 72 => ⟨S20000x512, .f32⟩
  | 73 => ⟨S340000x1, .i32⟩
  | 74 => ⟨S20000x512, .f32⟩
  | 75 => ⟨S1x512, .f32⟩
  | 76 => ⟨S20000x512, .f32⟩
  | 77 => ⟨S20000x512, .f32⟩
  | 78 => ⟨S_, .f32⟩
  | 79 => ⟨S20000x512, .f32⟩
  | 80 => ⟨S20000x512, .f32⟩
  | 81 => ⟨S20000x256, .f32⟩
  | 82 => ⟨S20000, .i32⟩
  | 83 => ⟨S1x320000, .i32⟩
  | 84 => ⟨S320000, .i32⟩
  | 85 => ⟨S340000, .i32⟩
  | 86 => ⟨S1x320000, .i32⟩
  | 87 => ⟨S320000, .i32⟩
  | 88 => ⟨S340000, .i32⟩
  | 89 => ⟨S_, .f32⟩
  | 90 => ⟨S20000, .f32⟩
  | 91 => ⟨S_, .i32⟩
  | 92 => ⟨S340000, .i32⟩
  | 93 => ⟨S340000, .i1⟩
  | 94 => ⟨S_, .i32⟩
  | 95 => ⟨S340000, .i32⟩
  | 96 => ⟨S340000, .i32⟩
  | 97 => ⟨S340000, .i32⟩
  | 98 => ⟨S340000x1, .i32⟩
  | 99 => ⟨S_, .f32⟩
  | 100 => ⟨S340000, .f32⟩
  | 101 => ⟨S20000, .f32⟩
  | 102 => ⟨S_, .f32⟩
  | 103 => ⟨S20000, .f32⟩
  | 104 => ⟨S20000, .i1⟩
  | 105 => ⟨S20000, .f32⟩
  | 106 => ⟨S_, .f32⟩
  | 107 => ⟨S_, .f32⟩
  | 108 => ⟨S20000, .f32⟩
  | 109 => ⟨S20000, .f32⟩
  | 110 => ⟨S_, .i32⟩
  | 111 => ⟨S340000, .i32⟩
  | 112 => ⟨S340000, .i1⟩
  | 113 => ⟨S_, .i32⟩
  | 114 => ⟨S340000, .i32⟩
  | 115 => ⟨S340000, .i32⟩
  | 116 => ⟨S340000, .i32⟩
  | 117 => ⟨S340000x1, .i32⟩
  | 118 => ⟨S340000, .f32⟩
  | 119 => ⟨S_, .i32⟩
  | 120 => ⟨S340000, .i32⟩
  | 121 => ⟨S340000, .i1⟩
  | 122 => ⟨S_, .i32⟩
  | 123 => ⟨S340000, .i32⟩
  | 124 => ⟨S340000, .i32⟩
  | 125 => ⟨S340000, .i32⟩
  | 126 => ⟨S340000x1, .i32⟩
  | 127 => ⟨S340000, .f32⟩
  | _ => ⟨S20000x128, .f32⟩

abbrev hbmTy0_1 (i : Nat) : BufTy := match i % 128 with
  | 0 => ⟨S340000, .f32⟩
  | 1 => ⟨S_, .i32⟩
  | 2 => ⟨S340000, .i32⟩
  | 3 => ⟨S340000, .i1⟩
  | 4 => ⟨S_, .i32⟩
  | 5 => ⟨S340000, .i32⟩
  | 6 => ⟨S340000, .i32⟩
  | 7 => ⟨S340000, .i32⟩
  | 8 => ⟨S340000x1, .i32⟩
  | 9 => ⟨S340000x256, .f32⟩
  | 10 => ⟨S340000x1, .f32⟩
  | 11 => ⟨S340000x256, .f32⟩
  | 12 => ⟨S340000x256, .f32⟩
  | 13 => ⟨S_, .f32⟩
  | 14 => ⟨S20000x256, .f32⟩
  | 15 => ⟨S340000x1, .i32⟩
  | 16 => ⟨S20000x256, .f32⟩
  | 17 => ⟨S1x256, .f32⟩
  | 18 => ⟨S20000x256, .f32⟩
  | 19 => ⟨S20000x256, .f32⟩
  | 20 => ⟨S_, .f32⟩
  | 21 => ⟨S20000x256, .f32⟩
  | 22 => ⟨S20000x256, .f32⟩
  | 23 => ⟨S20000x128, .f32⟩
  | 24 => ⟨S20000, .i32⟩
  | 25 => ⟨S1x320000, .i32⟩
  | 26 => ⟨S320000, .i32⟩
  | 27 => ⟨S340000, .i32⟩
  | 28 => ⟨S1x320000, .i32⟩
  | 29 => ⟨S320000, .i32⟩
  | 30 => ⟨S340000, .i32⟩
  | 31 => ⟨S_, .f32⟩
  | 32 => ⟨S20000, .f32⟩
  | 33 => ⟨S_, .i32⟩
  | 34 => ⟨S340000, .i32⟩
  | 35 => ⟨S340000, .i1⟩
  | 36 => ⟨S_, .i32⟩
  | 37 => ⟨S340000, .i32⟩
  | 38 => ⟨S340000, .i32⟩
  | 39 => ⟨S340000, .i32⟩
  | 40 => ⟨S340000x1, .i32⟩
  | 41 => ⟨S_, .f32⟩
  | 42 => ⟨S340000, .f32⟩
  | 43 => ⟨S20000, .f32⟩
  | 44 => ⟨S_, .f32⟩
  | 45 => ⟨S20000, .f32⟩
  | 46 => ⟨S20000, .i1⟩
  | 47 => ⟨S20000, .f32⟩
  | 48 => ⟨S_, .f32⟩
  | 49 => ⟨S_, .f32⟩
  | 50 => ⟨S20000, .f32⟩
  | 51 => ⟨S20000, .f32⟩
  | 52 => ⟨S_, .i32⟩
  | 53 => ⟨S340000, .i32⟩
  | 54 => ⟨S340000, .i1⟩
  | 55 => ⟨S_, .i32⟩
  | 56 => ⟨S340000, .i32⟩
  | 57 => ⟨S340000, .i32⟩
  | 58 => ⟨S340000, .i32⟩
  | 59 => ⟨S340000x1, .i32⟩
  | 60 => ⟨S340000, .f32⟩
  | 61 => ⟨S_, .i32⟩
  | 62 => ⟨S340000, .i32⟩
  | 63 => ⟨S340000, .i1⟩
  | 64 => ⟨S_, .i32⟩
  | 65 => ⟨S340000, .i32⟩
  | 66 => ⟨S340000, .i32⟩
  | 67 => ⟨S340000, .i32⟩
  | 68 => ⟨S340000x1, .i32⟩
  | 69 => ⟨S340000, .f32⟩
  | 70 => ⟨S340000, .f32⟩
  | 71 => ⟨S_, .i32⟩
  | 72 => ⟨S340000, .i32⟩
  | 73 => ⟨S340000, .i1⟩
  | 74 => ⟨S_, .i32⟩
  | 75 => ⟨S340000, .i32⟩
  | 76 => ⟨S340000, .i32⟩
  | 77 => ⟨S340000, .i32⟩
  | 78 => ⟨S340000x1, .i32⟩
  | 79 => ⟨S340000x128, .f32⟩
  | 80 => ⟨S340000x1, .f32⟩
  | 81 => ⟨S340000x128, .f32⟩
  | 82 => ⟨S340000x128, .f32⟩
  | 83 => ⟨S_, .f32⟩
  | 84 => ⟨S20000x128, .f32⟩
  | 85 => ⟨S340000x1, .i32⟩
  | 86 => ⟨S20000x128, .f32⟩
  | 87 => ⟨S1x128, .f32⟩
  | 88 => ⟨S20000x128, .f32⟩
  | 89 => ⟨S20000x128, .f32⟩
  | 90 => ⟨S_, .f32⟩
  | 91 => ⟨S64x128, .f32⟩
  | 92 => ⟨S20000x1, .i32⟩
  | 93 => ⟨S64x128, .f32⟩
  | 94 => ⟨S_, .f32⟩
  | 95 => ⟨S20000, .f32⟩
  | 96 => ⟨S_, .f32⟩
  | 97 => ⟨S64, .f32⟩
  | 98 => ⟨S20000x1, .i32⟩
  | 99 => ⟨S64, .f32⟩
  | 100 => ⟨S_, .f32⟩
  | 101 => ⟨S_, .f32⟩
  | 102 => ⟨S64, .f32⟩
  | 103 => ⟨S64, .f32⟩
  | 104 => ⟨S64x1, .f32⟩
  | 105 => ⟨S64x128, .f32⟩
  | 106 => ⟨S64x128, .f32⟩
  | 107 => ⟨S64x2, .f32⟩
  | 108 => ⟨S1x2, .f32⟩
  | 109 => ⟨S64x2, .f32⟩
  | 110 => ⟨S64x2, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call1_cst : Ref sig .tc := ⟨.hbm, 78, rfl⟩
abbrev main_call1_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_16 : Ref sig .tc := ⟨.hbm, 106, rfl⟩
abbrev main_call2_v0 : Ref sig .tc := ⟨.hbm, 107, rfl⟩
abbrev main_call2_v1 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_19 : Ref sig .tc := ⟨.hbm, 119, rfl⟩
abbrev main_v81 : Ref sig .tc := ⟨.hbm, 120, rfl⟩
abbrev main_v82 : Ref sig .tc := ⟨.hbm, 121, rfl⟩
abbrev main_c_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_21 : Ref sig .tc := ⟨.hbm, 129, rfl⟩
abbrev main_v89 : Ref sig .tc := ⟨.hbm, 130, rfl⟩
abbrev main_v90 : Ref sig .tc := ⟨.hbm, 131, rfl⟩
abbrev main_c_22 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_call3_cst : Ref sig .tc := ⟨.hbm, 148, rfl⟩
abbrev main_call3_v0 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_24 : Ref sig .tc := ⟨.hbm, 159, rfl⟩
abbrev main_v114 : Ref sig .tc := ⟨.hbm, 160, rfl⟩
abbrev main_c_25 : Ref sig .tc := ⟨.hbm, 161, rfl⟩
abbrev main_v115 : Ref sig .tc := ⟨.hbm, 162, rfl⟩
abbrev main_v116 : Ref sig .tc := ⟨.hbm, 163, rfl⟩
abbrev main_c_26 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_27 : Ref sig .tc := ⟨.hbm, 169, rfl⟩
abbrev main_v121 : Ref sig .tc := ⟨.hbm, 170, rfl⟩
abbrev main_v122 : Ref sig .tc := ⟨.hbm, 171, rfl⟩
abbrev main_cst_28 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_29 : Ref sig .tc := ⟨.hbm, 176, rfl⟩
abbrev main_call4_v0 : Ref sig .tc := ⟨.hbm, 177, rfl⟩
abbrev main_call4_v1 : Ref sig .tc := ⟨.hbm, 178, rfl⟩
abbrev main_v126 : Ref sig .tc := ⟨.hbm, 179, rfl⟩
abbrev main_c_30 : Ref sig .tc := ⟨.hbm, 180, rfl⟩
abbrev main_v127 : Ref sig .tc := ⟨.hbm, 181, rfl⟩
abbrev main_v128 : Ref sig .tc := ⟨.hbm, 182, rfl⟩
abbrev main_c_31 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_c_32 : Ref sig .tc := ⟨.hbm, 189, rfl⟩
abbrev main_v134 : Ref sig .tc := ⟨.hbm, 190, rfl⟩
abbrev main_v135 : Ref sig .tc := ⟨.hbm, 191, rfl⟩
abbrev main_c_33 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_c_34 : Ref sig .tc := ⟨.hbm, 199, rfl⟩
abbrev main_v142 : Ref sig .tc := ⟨.hbm, 200, rfl⟩
abbrev main_v143 : Ref sig .tc := ⟨.hbm, 201, rfl⟩
abbrev main_c_35 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_36 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_37 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_cst_38 : Ref sig .tc := ⟨.hbm, 222, rfl⟩
abbrev main_v161 : Ref sig .tc := ⟨.hbm, 223, rfl⟩
abbrev main_cst_39 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_cst_40 : Ref sig .tc := ⟨.hbm, 228, rfl⟩
abbrev main_call5_v0 : Ref sig .tc := ⟨.hbm, 229, rfl⟩
abbrev main_call5_v1 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S_S340000 : S_.BroadcastsInDim S340000 (![] : Fin 0 → Fin S340000.rank)
  bcast_S340000_S340000x1_0 : S340000.BroadcastsInDim S340000x1 (![0] : Fin 1 → Fin S340000x1.rank)
  bcast_S340000x1_S340000x512_0_1 : S340000x1.BroadcastsInDim S340000x512 (![0, 1] : Fin 2 → Fin S340000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S340000x1_S340000x128_0_1 : S340000x1.BroadcastsInDim S340000x128 (![0, 1] : Fin 2 → Fin S340000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S64x128 : S_.BroadcastsInDim S64x128 (![] : Fin 0 → Fin S64x128.rank)
  bcast_S20000_S20000x1_0 : S20000.BroadcastsInDim S20000x1 (![0] : Fin 1 → Fin S20000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S20000x128_S128x512_S20000x512_1_0_0_1_n_n_wf : DotDims.WF S20000x128 S128x512 S20000x512 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x512_S340000x1_S340000x512_1_0_n_n_0_1_1512_wf : GatherDims.WF S20000x512 S340000x1 S340000x512 [1] [0] [] [0] [] 1 ![1, 512]
  scatter_S20000x512_S340000x1_S340000x512_1_0_0_1_wf : ScatterDims.WF S20000x512 S340000x1 S340000x512 [1] [0] [0] 1
  dot_S20000x512_S512x256_S20000x256_1_0_0_1_n_n_wf : DotDims.WF S20000x512 S512x256 S20000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x128_S20000x128_1_0_0_1_n_n_wf : DotDims.WF S20000x256 S256x128 S20000x128 [1] [0] [0] [1] [] []
  gather_S20000x128_S340000x1_S340000x128_1_0_n_n_0_1_1128_wf : GatherDims.WF S20000x128 S340000x1 S340000x128 [1] [0] [] [0] [] 1 ![1, 128]
  scatter_S20000x128_S340000x1_S340000x128_1_0_0_1_wf : ScatterDims.WF S20000x128 S340000x1 S340000x128 [1] [0] [0] 1
  scatter_S64x128_S20000x1_S20000x128_1_0_0_1_wf : ScatterDims.WF S64x128 S20000x1 S20000x128 [1] [0] [0] 1
  scatter_S64_S20000x1_S20000_n_0_0_1_wf : ScatterDims.WF S64 S20000x1 S20000 [] [0] [0] 1
  dot_S64x128_S128x2_S64x2_1_0_0_1_n_n_wf : DotDims.WF S64x128 S128x2 S64x2 [1] [0] [0] [1] [] []

variable [Facts₀]

def dot_S20000x128_S128x512_S20000x512_1_0_0_1_n_n : DotDims S20000x128 S128x512 S20000x512 where
  lhsContracting := [1]
  rhsContracting := [0]
  lhsNonContracting := [0]
  rhsNonContracting := [1]
  lhsBatch := []
  rhsBatch := []
  wf := dot_S20000x128_S128x512_S20000x512_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x512_S340000x1_S340000x512_1_0_n_n_0_1_1512 : GatherDims S20000x512 S340000x1 S340000x512 where
  offsetDims := [1]
  collapsedSliceDims := [0]
  operandBatchingDims := []
  startIndicesBatchingDims := []
  startIndexMap := [0]
  indexVectorDim := 1
  sliceSizes := ![1, 512]
  wf := gather_S20000x512_S340000x1_S340000x512_1_0_n_n_0_1_1512_wf
def scatter_S20000x512_S340000x1_S340000x512_1_0_0_1 : ScatterDims S20000x512 S340000x1 S340000x512 where
  updateWindowDims := [1]
  insertedWindowDims := [0]
  scatterDimsToOperandDims := [0]
  indexVectorDim := 1
  wf := scatter_S20000x512_S340000x1_S340000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S340000x1_S340000x128_1_0_n_n_0_1_1128 : GatherDims S20000x128 S340000x1 S340000x128 where
  offsetDims := [1]
  collapsedSliceDims := [0]
  operandBatchingDims := []
  startIndicesBatchingDims := []
  startIndexMap := [0]
  indexVectorDim := 1
  sliceSizes := ![1, 128]
  wf := gather_S20000x128_S340000x1_S340000x128_1_0_n_n_0_1_1128_wf
def scatter_S20000x128_S340000x1_S340000x128_1_0_0_1 : ScatterDims S20000x128 S340000x1 S340000x128 where
  updateWindowDims := [1]
  insertedWindowDims := [0]
  scatterDimsToOperandDims := [0]
  indexVectorDim := 1
  wf := scatter_S20000x128_S340000x1_S340000x128_1_0_0_1_wf
def scatter_S64x128_S20000x1_S20000x128_1_0_0_1 : ScatterDims S64x128 S20000x1 S20000x128 where
  updateWindowDims := [1]
  insertedWindowDims := [0]
  scatterDimsToOperandDims := [0]
  indexVectorDim := 1
  wf := scatter_S64x128_S20000x1_S20000x128_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KernelRun.lean ====
/-
  The idealized kernel's whole run with its result named.

  The program is four launches among stretches of host operations. Its run is a fold of buffer contents: the
  launch memory, then after each stretch the stretch's operations applied, then after each launch the launch's
  arrays at what its write-backs leave and every other buffer as it was. The last stage of that fold, `W12`,
  is what every unscoped buffer holds when the program returns. Read at the eleven argument arrays it is the launch
  memory; read at the result buffer it is the value the later modules compute. This module states the run with
  both: every weakly fair execution terminates without fault, the result buffer ends at `W12` read there, and
  the arguments end as launched.
-/
import proofs.«136179_j61770219651386_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer then holds the last
    stage of the fold of contents read at that buffer, and each argument array what it held at launch. -/
theorem run_named : θ_run defs (onTc (τ := τ) (main (F := F))) ⟨m, fun _ => 0, ρ⟩ (fun r => ∀ c : Dev nD,
      r.2.mem ((c.tc : Thread nD τ).loc main_v94) = W12 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v94 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.KRun

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibPlainDot.lean ====
/-
  A plain matrix product on the host, read at an index over the extended reals.
-/
import Idealize.ShloMosaic.PureOps.Ideal.Laws
import Idealize.ShloMosaic.Lib.ValueIdx
import Idealize.ShloMosaic.Lib.Pipeline.Value

noncomputable section

namespace Idealize.ShloMosaic.PlainDot

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals the host's plain matrix product is, at row `p` and column `q`, the sum over the contracted
    coordinate `k` of the left operand at `(p, k)` times the right operand at `(k, q)`, whatever the precision. -/
theorem dotGeneral_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (dims wf) prec lhs rhs (ix2 p q) = ∑ k : Fin K, lhs (ix2 p k) * rhs (ix2 k q) := by
  simp only [Host.dotGeneral]
  rw [Ideal.dotGeneral_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainDot

end
-- ==== Proof.LibDenseLayer.lean ====
/-
  Dense layers over the extended reals, read index by index.

  Three shapes of one layer of a feed-forward network, each as a function of whole arrays:
  `dense x w` is the matrix product, entry `(p, q)` the sum over `k` of `x (p, k) * w (k, q)`;
  `reluDense a b w` first adds the one-row array `b` to every row of `a` and takes the maximum with the word `z`
  (the zero word where it is used), then multiplies by `w`; `denseBias x w b` multiplies and then adds the one-row
  array `b` to every row. For each, two readings are proved equal to it: a ROW TILE computed by a matrix unit into a
  zero accumulator from operands rounded to a narrower format (over the extended reals the rounding is the identity), read
  at a row `p` of the tile, is the layer's entry at that row of the tile's operand; and the host's matrix product of the
  whole arrays is the layer. Sums are over `Fin K` in one fixed order on both sides, so no law of the extended reals
  beyond reading each operation at an index is used, and nothing needs the entries finite.
-/
import Idealize.ShloMosaic.PureOps.Ideal.Laws
import Idealize.ShloMosaic.Lib.ValueIdx
import Idealize.ShloMosaic.Lib.ValueLayout
import Idealize.ShloMosaic.Lib.Pipeline.Value
import proofs.«136179_j61770219651386_1_alg».proof.Proof.LibPlainMatmul
import proofs.«136179_j61770219651386_1_alg».proof.Proof.LibPlainDot

noncomputable section

namespace Idealize.ShloMosaic.DenseLayer

open Idealize.ShloMosaic Idealize.ShloMosaic.ValueIdx

variable {M R K N : Nat}

/-- The matrix product of an `[M, K]` array with a `[K, N]` array, entry by entry. -/
def dense (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

/-- Add the row `b` to every row of `a`, take the maximum with `z`, multiply by `w`. -/
def reluDense (z : Ideal .f32) (a : FVec Ideal ⟨2, ![M, K]⟩ .f32) (b : FVec Ideal ⟨2, ![1, K]⟩ .f32)
    (w : FVec Ideal ⟨2, ![K, N]⟩ .f32) : FVec Ideal ⟨2, ![M, N]⟩ .f32 :=
  fun i => ∑ k : Fin K, max (a (ix2 (n0 := M) (i 0) k) + b (ix2 (0 : Fin 1) k)) z * w (ix2 (n1 := N) k (i 1))

/-- Multiply `x` by `w`, then add the row `b` to every row. -/
def denseBias (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ k : Fin K, x (ix2 (n0 := M) (i 0) k) * w (ix2 (n1 := N) k (i 1))) + b (ix2 (0 : Fin 1) (i 1))

theorem dense_apply (x : FVec Ideal ⟨2, ![M, K]⟩ .f32) (w : FVec Ideal ⟨2, ![K, N]⟩ .f32) (p : Fin M) (q : Fin N) :
    dense x w (ix2 p q) = ∑ k : Fin K, x (ix2 p k) * w (ix2 k q) := rfl

theorem reluDense_apply (z : Ideal .f32) (a : FVec Ideal ⟨2, ![M, K]⟩ .f32) (b : FVec Ideal ⟨2, ![1, K]⟩ .f32)
    (w : FVec Ideal ⟨2, ![K, N]⟩ .f32) (p : Fin M) (q : Fin N) :
    reluDense z a b w (ix2 p q) = ∑ k : Fin K, max (a (ix2 p k) + b (ix2 (0 : Fin 1) k)) z * w (ix2 k q) := rfl

theorem denseBias_apply (x : FVec Ideal ⟨2, ![M, K]⟩ .f32) (w : FVec Ideal ⟨2, ![K, N]⟩ .f32)
    (b : FVec Ideal ⟨2, ![1, N]⟩ .f32) (p : Fin M) (q : Fin N) :
    denseBias x w b (ix2 p q) = (∑ k : Fin K, x (ix2 p k) * w (ix2 k q)) + b (ix2 (0 : Fin 1) q) := rfl

/-! ## A row tile computed by a matrix unit -/

/-- A tile of `R` rows times the whole `w`, both rounded on the way in, into a zero accumulator: entry `(p, q)` is
    the sum over `k` of the tile's `(p, k)` times `w (k, q)`. -/
theorem matmul_tile (wf : DotDims.WF ⟨2, ![R, K]⟩ ⟨2, ![K, N]⟩ ⟨2, ![R, N]⟩ [1] [0] [0] [1] [] [])
    (prec : Option ContractPrecision) {ψ : FTy} (h : ψ.bits < FTy.f32.bits)
    (x : FVec Ideal ⟨2, ![R, K]⟩ .f32) (w : FVec Ideal ⟨2, ![K, N]⟩ .f32) (p : Fin R) (q : Fin N) :
    matmul (PlainMatmul.dims wf) prec (truncf ψ x h) (truncf ψ w h) (constant ⟨2, ![R, N]⟩ .f32 0x00000000#32) (ix2 p q)
      = ∑ k : Fin K, x (ix2 p k) * w (ix2 k q) :=
  PlainMatmul.matmul_zero_apply wf prec (truncf ψ x h) (truncf ψ w h) p q

/-- The same tile when the left operand is first cast to its own shape, shifted by the one-row array `b` spread over
    the rows, and cut off below at the scalar word `z`. -/
theorem reluMatmul_tile (wf : DotDims.WF ⟨2, ![R, K]⟩ ⟨2, ![K, N]⟩ ⟨2, ![R, N]⟩ [1] [0] [0] [1] [] [])
    (prec : Option ContractPrecision) {ψ : FTy} (h : ψ.bits < FTy.f32.bits)
    (hs : (⟨2, ![R, K]⟩ : Shape).ShapeCasts ⟨2, ![R, K]⟩) (hs' : (⟨2, ![1, K]⟩ : Shape).ShapeCasts ⟨2, ![1, K]⟩)
    (hb : (⟨2, ![1, K]⟩ : Shape).Broadcasts ⟨2, ![R, K]⟩) (zb : BitVec FTy.f32.bits)
    (a : FVec Ideal ⟨2, ![R, K]⟩ .f32) (b : FVec Ideal ⟨2, ![1, K]⟩ .f32) (w : FVec Ideal ⟨2, ![K, N]⟩ .f32)
    (p : Fin R) (q : Fin N) :
    matmul (PlainMatmul.dims wf) prec
        (truncf ψ (maximumf (addf (shapeCast ⟨2, ![R, K]⟩ a hs) (broadcastTo ⟨2, ![R, K]⟩ (shapeCast ⟨2, ![1, K]⟩ b hs') hb))
          (broadcast ⟨2, ![R, K]⟩ (Scalar.ofBits (F := Ideal) .f32 zb))) h)
        (truncf ψ w h) (constant ⟨2, ![R, N]⟩ .f32 0x00000000#32) (ix2 p q)
      = ∑ k : Fin K, max (a (ix2 p k) + b (ix2 (0 : Fin 1) k)) (Ideal.ofBits .f32 zb) * w (ix2 k q) := by
  refine (PlainMatmul.matmul_zero_apply wf prec _ _ p q).trans (Finset.sum_congr rfl fun k _ => ?_)
  rw [truncf_apply, truncf_apply, maximumf_apply, addf_apply, shapeCast_self, shapeCast_self,
    broadcastTo_1b_ab_apply, broadcast_apply]
  rfl

/-- A whole-array product followed by the one-row array `b` spread over the rows and added. -/
theorem matmulBias_tile (wf : DotDims.WF ⟨2, ![R, K]⟩ ⟨2, ![K, N]⟩ ⟨2, ![R, N]⟩ [1] [0] [0] [1] [] [])
    (prec : Option ContractPrecision) {ψ : FTy} (h : ψ.bits < FTy.f32.bits)
    (hs : (⟨2, ![R, K]⟩ : Shape).ShapeCasts ⟨2, ![R, K]⟩) (hs' : (⟨2, ![1, N]⟩ : Shape).ShapeCasts ⟨2, ![1, N]⟩)
    (hb : (⟨2, ![1, N]⟩ : Shape).Broadcasts ⟨2, ![R, N]⟩)
    (x : FVec Ideal ⟨2, ![R, K]⟩ .f32) (w : FVec Ideal ⟨2, ![K, N]⟩ .f32) (b : FVec Ideal ⟨2, ![1, N]⟩ .f32)
    (p : Fin R) (q : Fin N) :
    addf (matmul (PlainMatmul.dims wf) prec (truncf ψ (shapeCast ⟨2, ![R, K]⟩ x hs) h) (truncf ψ w h)
          (constant ⟨2, ![R, N]⟩ .f32 0x00000000#32))
        (broadcastTo ⟨2, ![R, N]⟩ (shapeCast ⟨2, ![1, N]⟩ b hs') hb) (ix2 p q)
      = (∑ k : Fin K, x (ix2 p k) * w (ix2 k q)) + b (ix2 (0 : Fin 1) q) := by
  rw [addf_apply, broadcastTo_1b_ab_apply, shapeCast_self, shapeCast_self]
  exact congrArg (· + b (ix2 (0 : Fin 1) q)) (PlainMatmul.matmul_zero_apply wf prec _ _ p q)

/-! ## The host's product of the whole arrays -/

/-- The host's plain matrix product is the dense layer. -/
theorem dotGeneral_eq_dense (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (PlainDot.dims wf) prec x w = dense x w := by
  funext i
  obtain ⟨p, q, rfl⟩ : ∃ (p : Fin M) (q : Fin N), i = ix2 p q := ⟨i 0, i 1, eq_ix2 i⟩
  exact PlainDot.dotGeneral_apply wf prec x w p q

end Idealize.ShloMosaic.DenseLayer

end
-- ==== Proof.Layer1.lean ====
/-
  The first launch: ten tiles of 2000 rows of `x · W1`.

  The launch's grid has ten points. At point `t` the pipeline stages rows `2000 t … 2000 t + 1999` of the
  `[20000, 128]` operand and the whole `[128, 512]` weight, the body multiplies them on the matrix unit into a zero
  accumulator, and the `[2000, 512]` product is written back to the same rows of the `[20000, 512]` result. So the entry
  `(2000 t + p, q)` of the result is the sum over `k` of the operand's `(2000 t + p, k)` times the weight's `(k, q)`:
  block `t` of the result is block `t` of the dense layer of the whole arrays. The ten blocks tile the result's rows,
  so after the launch the result array IS the dense layer of the two arrays as the launch found them.
  Stated for any contents `V` at the launch's entry.
-/
import proofs.«136179_j61770219651386_1_alg».proof.Proof.Gen.KernelIdeal.Frame
import proofs.«136179_j61770219651386_1_alg».proof.Proof.LibDenseLayer

set_option maxRecDepth 16384

noncomputable section

namespace Cert.KernelIdeal.Layer1

open Idealize.ShloMosaic Idealize.ShloMosaic.TcCoe Idealize.SL.Sem
open Idealize.ShloMosaic.Pipeline (Dat Cfg Window)
open Idealize.ShloMosaic.ValueIdx Idealize.ShloMosaic.DenseLayer
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's product of a tile with the weight, read at row `p` and column `q` of the tile. -/
theorem tile_apply (x0 : Vec Ideal S2000x128 .f32) (x1 : Vec Ideal S128x512 .f32) (p : Fin 2000) (q : Fin 512) :
    k0_pay1 (F := Ideal) x0 x1 (ix2 p q) = ∑ k : Fin 128, x0 (ix2 p k) * x1 (ix2 k q) := by
  unfold k0_pay1
  exact matmul_tile (R := 2000) (K := 128) (N := 512) dot_S2000x128_S128x512_S2000x512_1_0_0_1_n_n.wf none bitsLt_bf16_f32 x0 x1 p q

/-- Where the three windows' blocks sit at each grid point: the operand's and the result's at row block `t`, the
    weight's at the origin. -/
theorem blocks_at : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some grid point's. -/
theorem blocks_onto : ∀ r : Fin 10, ∃ t : Fin cfg0.N, win0_2.index t = ![r.val, 0] :=
  (by decide +kernel : ∀ r : Fin 10, ∃ t : Fin grid0.N, win0_2.index t = ![r.val, 0])

/-- What point `t` writes back is block `t` of the dense layer of the arrays as the launch finds them. -/
theorem written_back (c : Dev nD) (t : Fin cfg0.N) :
    (dat0 (F := Ideal) V c).flushed 2 t
      = ((cfg0.win 2).blk t).view.read (Elt Ideal) (dense (M := 20000) (K := 128) (N := 512) (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x512) hz]
  obtain ⟨e0, e1, e2, e3, e4, e5⟩ := blocks_at t
  funext j
  obtain ⟨p, q, rfl⟩ : ∃ (p : Fin 2000) (q : Fin 512), j = ix2 p q := ⟨j 0, j 1, eq_ix2 j⟩
  refine (tile_apply (iblk0 V c 0 t) (iblk0 V c 1 t) p q).trans ?_
  have h0 : ∀ k : Fin 128, ((cfg0.win 0).blk t).view.emb (ix2 p k)
      = ix2 (n0 := 20000) ((((cfg0.win 2).blk t).view.emb (ix2 p q)) 0) k := fun k => by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ∀ k : Fin 128, ((cfg0.win 1).blk t).view.emb (ix2 k q)
      = ix2 (n1 := 512) k ((((cfg0.win 2).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 512 + 1 * q.val = win0_2.index t (1 : Fin 2) * 512 + 1 * q.val; omega
  -- for any two arrays: the tile's sum over the blocks' entries is the layer's entry at the block's place in the array
  have key : ∀ (A : FVec Ideal S20000x128 .f32) (B : FVec Ideal S128x512 .f32),
      (∑ k : Fin 128, A (((cfg0.win 0).blk t).view.emb (ix2 p k)) * B (((cfg0.win 1).blk t).view.emb (ix2 k q)))
        = dense (M := 20000) (K := 128) (N := 512) A B (((cfg0.win 2).blk t).view.emb (ix2 p q)) := by
    intro A B
    unfold dense
    exact Finset.sum_congr rfl fun k _ => by rw [h0 k, h1 k]
  exact key (V c main_arg0) (V c main_arg3)

/-- An index of the result is in point `t`'s block iff each coordinate is in the block's range on its axis. -/
theorem mem_block (t : Fin cfg0.N) (i : S20000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v35).slice (win0_2.rect t)).set ↔ _
  rw [View.set_slice_whole, Rect.mem_set_unit]
  exact Iff.rfl

/-- The ten blocks tile the result: row `r` is in the block of the point at row block `r / 2000`. -/
theorem covered (i : S20000x512.Idx) :
    ∃ t : Fin cfg0.N, (cfg0.win 2).flush t = true ∧ i ∈ ((cfg0.win 2).blk t).view.set := by
  have hi0 : (i 0).val < 20000 := (i 0).isLt
  have hi1 : (i 1).val < 512 := (i 1).isLt
  obtain ⟨t, ht⟩ := blocks_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- After the launch the result array is the dense layer of the operand and the weight as the launch found them. -/
theorem result (c : Dev nD) :
    (dat0 (F := Ideal) V c).arrAt 2 cfg0.N = dense (M := 20000) (K := 128) (N := 512) (V c main_arg0) (V c main_arg3) :=
  (dat0 V c).arrAt_eq_of_cover 2 _ (fun t _ => written_back V c t) covered

end Cert.KernelIdeal.Layer1

end
-- ==== Proof.Layer2.lean ====
/-
  The second launch: ten tiles of 2000 rows of `max(agg1 + b1, 0) · W2`.

  At grid point `t` the pipeline stages rows `2000 t … 2000 t + 1999` of the `[20000, 512]` aggregate, the one-row bias
  and the whole `[512, 256]` weight; the body adds the bias row to every row of the tile, takes the maximum with zero,
  multiplies by the weight into a zero accumulator, and the `[2000, 256]` product goes back to the same rows of the result.
  Entry `(2000 t + p, q)` is the sum over `k` of `max(agg (2000 t + p, k) + b (0, k), 0) · W (k, q)`: block `t` of
  the layer of the whole arrays. The ten blocks tile the rows, so the result array is that layer. For any entry contents `V`.
-/
import proofs.«136179_j61770219651386_1_alg».proof.Proof.Gen.KernelIdeal.Frame
import proofs.«136179_j61770219651386_1_alg».proof.Proof.LibDenseLayer

set_option maxRecDepth 16384

noncomputable section

namespace Cert.KernelIdeal.Layer2

open Idealize.ShloMosaic Idealize.ShloMosaic.TcCoe Idealize.SL.Sem
open Idealize.ShloMosaic.Pipeline (Dat Cfg Window)
open Idealize.ShloMosaic.ValueIdx Idealize.ShloMosaic.DenseLayer
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at row `p` and column `q` of the tile: the tile's row plus the bias row, cut off below at zero,
    times the weight's column. -/
theorem tile_apply (x0 : Vec Ideal S2000x512 .f32) (x1 : Vec Ideal S1x512 .f32) (x2 : Vec Ideal S512x256 .f32)
    (p : Fin 2000) (q : Fin 256) :
    k1_pay1 (F := Ideal) x0 x1 x2 (ix2 p q)
      = ∑ k : Fin 512, max (x0 (ix2 p k) + x1 (ix2 (0 : Fin 1) k)) (Ideal.ofBits .f32 0x00000000#32) * x2 (ix2 k q) := by
  unfold k1_pay1
  exact reluMatmul_tile (R := 2000) (K := 512) (N := 256) dot_S2000x512_S512x256_S2000x256_1_0_0_1_n_n.wf none bitsLt_bf16_f32
    shapeCasts_S2000x512_S2000x512 shapeCasts_S1x512_S1x512 broadcasts_S1x512_S2000x512 0x00000000#32 x0 x1 x2 p q

/-- Where the four windows' blocks sit at each grid point: the operand's and the result's at row block `t`, the bias
    row's and the weight's at the origin. -/
theorem blocks_at : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every row block of the result is some grid point's. -/
theorem blocks_onto : ∀ r : Fin 10, ∃ t : Fin cfg1.N, win1_3.index t = ![r.val, 0] :=
  (by decide +kernel : ∀ r : Fin 10, ∃ t : Fin grid1.N, win1_3.index t = ![r.val, 0])

/-- What point `t` writes back is block `t` of the layer of the arrays as the launch finds them. -/
theorem written_back (c : Dev nD) (t : Fin cfg1.N) :
    (dat1 (F := Ideal) V c).flushed 3 t
      = ((cfg1.win 3).blk t).view.read (Elt Ideal)
          (reluDense (M := 20000) (K := 512) (N := 256) (Ideal.ofBits .f32 0x00000000#32) (V c main_v48) (V c main_v49) (V c main_arg5)) := by
  show (cfg1.win 3).cut (grid1.coords t) ((dat1 V c).after 3 t) = _
  rw [after1_3]
  unfold out1_3
  rw [View.canon_unit_zero hz]
  simp only [View.ld_unit_zero (S := S2000x512) hz, View.ld_unit_zero (S := S1x512) hz, View.ld_unit_zero (S := S512x256) hz]
  obtain ⟨e0, e1, e2, e3, e4, e5, e6, e7⟩ := blocks_at t
  funext j
  obtain ⟨p, q, rfl⟩ : ∃ (p : Fin 2000) (q : Fin 256), j = ix2 p q := ⟨j 0, j 1, eq_ix2 j⟩
  refine (tile_apply (iblk1 V c 0 t) (iblk1 V c 1 t) (iblk1 V c 2 t) p q).trans ?_
  have h0 : ∀ k : Fin 512, ((cfg1.win 0).blk t).view.emb (ix2 p k)
      = ix2 (n0 := 20000) ((((cfg1.win 3).blk t).view.emb (ix2 p q)) 0) k := fun k => by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 512 + 1 * k.val = k.val; omega
  have h1 : ∀ k : Fin 512, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 512 + 1 * k.val = k.val; omega
  have h2 : ∀ k : Fin 512, ((cfg1.win 2).blk t).view.emb (ix2 k q)
      = ix2 (n1 := 256) k ((((cfg1.win 3).blk t).view.emb (ix2 p q)) 1) := fun k => by
    funext a; apply Fin.ext
    match a with
    | ⟨0, _⟩ => show win1_2.index t (0 : Fin 2) * 512 + 1 * k.val = k.val; omega
    | ⟨1, _⟩ => show win1_2.index t (1 : Fin 2) * 256 + 1 * q.val = win1_3.index t (1 : Fin 2) * 256 + 1 * q.val; omega
  -- for any three arrays: the tile's sum over the blocks' entries is the layer's entry at the block's place in the array
  have key : ∀ (A : FVec Ideal S20000x512 .f32) (b : FVec Ideal S1x512 .f32) (B : FVec Ideal S512x256 .f32),
      (∑ k : Fin 512, max (A (((cfg1.win 0).blk t).view.emb (ix2 p k)) + b (((cfg1.win 1).blk t).view.emb (ix2 (0 : Fin 1) k)))
          (Ideal.ofBits .f32 0x00000000#32) * B (((cfg1.win 2).blk t).view.emb (ix2 k q)))
        = reluDense (M := 20000) (K := 512) (N := 256) (Ideal.ofBits .f32 0x00000000#32) A b B (((cfg1.win 3).blk t).view.emb (ix2 p q)) := by
    intro A b B
    unfold reluDense
    exact Finset.sum_congr rfl fun k _ => by rw [h0 k, h1 k, h2 k]
  exact key (V c main_v48) (V c main_v49) (V c main_arg5)

/-- An index of the result is in point `t`'s block iff each coordinate is in the block's range on its axis. -/
theorem mem_block (t : Fin cfg1.N) (i : S20000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v50).slice (win1_3.rect t)).set ↔ _
  rw [View.set_slice_whole, Rect.mem_set_unit]
  exact Iff.rfl

/-- The ten blocks tile the result: row `r` is in the block of the point at row block `r / 2000`. -/
theorem covered (i : S20000x256.Idx) :
    ∃ t : Fin cfg1.N, (cfg1.win 3).flush t = true ∧ i ∈ ((cfg1.win 3).blk t).view.set := by
  have hi0 : (i 0).val < 20000 := (i 0).isLt
  have hi1 : (i 1).val < 256 := (i 1).isLt
  obtain ⟨t, ht⟩ := blocks_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- After the launch the result array is the layer of the aggregate, the bias row and the weight as the launch found them. -/
theorem result (c : Dev nD) :
    (dat1 (F := Ideal) V c).arrAt 3 cfg1.N
      = reluDense (M := 20000) (K := 512) (N := 256) (Ideal.ofBits .f32 0x00000000#32) (V c main_v48) (V c main_v49) (V c main_arg5) :=
  (dat1 V c).arrAt_eq_of_cover 3 _ (fun t _ => written_back V c t) covered

end Cert.KernelIdeal.Layer2

end
-- ==== Proof.Layer3.lean ====
/-
  The third launch: ten tiles of 2000 rows of `max(agg2 + b2, 0) · W3`.

  The same body as the second launch at the next layer's extents: rows `2000 t … 2000 t + 1999` of the `[20000, 256]`
  aggregate, the one-row bias, the whole `[256, 128]` weight; entry `(2000 t + p, q)` of the `[20000, 128]` result is the
  sum over `k` of `max(agg (2000 t + p, k) + b (0, k), 0) · W (k, q)`. The ten blocks tile the rows, so the result array
  is the layer of the whole arrays. For any entry contents `V`.
-/
import proofs.«136179_j61770219651386_1_alg».proof.Proof.Gen.KernelIdeal.Frame
import proofs.«136179_j61770219651386_1_alg».proof.Proof.LibDenseLayer

set_option maxRecDepth 16384

noncomputable section

namespace Cert.KernelIdeal.Layer3

open Idealize.ShloMosaic Idealize.ShloMosaic.TcCoe Idealize.SL.Sem
open Idealize.ShloMosaic.Pipeline (Dat Cfg Window)
open Idealize.ShloMosaic.ValueIdx Idealize.ShloMosaic.DenseLayer
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at row `p` and column `q` of the tile: the tile's row plus the bias row, cut off below at zero,
    times the weight's column. -/
theorem tile_apply (x0 : Vec Ideal S2000x256 .f32) (x1 : Vec Ideal S1x256 .f32) (x2 : Vec Ideal S256x128 .f32)
    (p : Fin 2000) (q : Fin 128) :
    k2_pay1 (F := Ideal) x0 x1 x2 (ix2 p q)
      = ∑ k : Fin 256, max (x0 (ix2 p k) + x1 (ix2 (0 : Fin 1) k)) (Ideal.ofBits .f32 0x00000000#32) * x2 (ix2 k q) := by
  unfold k2_pay1
  exact reluMatmul_tile (R := 2000) (K := 256) (N := 128) dot_S2000x256_S256x128_S2000x128_1_0_0_1_n_n.wf none bitsLt_bf16_f32
    shapeCasts_S2000x256_S2000x256 shapeCasts_S1x256_S1x256 broadcasts_S1x256_S2000x256 0x00000000#32 x0 x1 x2 p q

/-- Where the four windows' blocks sit at each grid point: the operand's and the result's at row block `t`, the bias
    row's and the weight's at the origin. -/
theorem blocks_at : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 9 :=
  (by decide +kernel : ∀ t : Fin grid2.N, _)

/-- Every row block of the result is some grid point's. -/
theorem blocks_onto : ∀ r : Fin 10, ∃ t : Fin cfg2.N, win2_3.index t = ![r.val, 0] :=
  (by decide +kernel : ∀ r : Fin 10, ∃ t : Fin grid2.N, win2_3.index t = ![r.val, 0])

/-- What point `t` writes back is block `t` of the layer of the arrays as the launch finds them. -/
theorem written_back (c : Dev nD) (t : Fin cfg2.N) :
    (dat2 (F := Ideal) V c).flushed 3 t
      = ((cfg2.win 3).blk t).view.read (Elt Ideal)
          (reluDense (M := 20000) (K := 256) (N := 128) (Ideal.ofBits .f32 0x00000000#32) (V c main_v63) (V c main_v64) (V c main_arg7)) := by
  show (cfg2.win 3).cut (grid2.coords t) ((dat2 V c).after 3 t) = _
  rw [after2_3]
  unfold out2_3
  rw [View.canon_unit_zero hz]
  simp only [View.ld_unit_zero (S := S2000x256) hz, View.ld_unit_zero (S := S1x256) hz, View.ld_unit_zero (S := S256x128) hz]
  obtain ⟨e0, e1, e2, e3, e4, e5, e6, e7⟩ := blocks_at t
  funext j
  obtain ⟨p, q, rfl⟩ : ∃ (p : Fin 2000) (q : Fin 128), j = ix2 p q := ⟨j 0, j 1, eq_ix2 j⟩
  refine (tile_apply (iblk2 V c 0 t) (iblk2 V c 1 t) (iblk2 V c 2 t) p q).trans ?_
  have h0 : ∀ k : Fin 256, ((cfg2.win 0).blk t).view.emb (ix2 p k)
      = ix2 (n0 := 20000) ((((cfg2.win 3).blk t).view.emb (ix2 p q)) 0) k := fun k => by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 256 + 1 * k.val = k.val; omega
  have h1 : ∀ k : Fin 256, ((cfg2.win 1).blk t).view.emb (ix2 (0 : Fin 1) k) = ix2 (0 : Fin 1) k := fun k => by
    funext a; apply Fin.ext
    match a with
    | ⟨0, _⟩ => show win2_1.index t (0 : Fin 2) * 1 + 1 * 0 = 0; omega
    | ⟨1, _⟩ => show win2_1.index t (1 : Fin 2) * 256 + 1 * k.val = k.val; omega
  have h2 : ∀ k : Fin 256, ((cfg2.win 2).blk t).view.emb (ix2 k q)
      = ix2 (n1 := 128) k ((((cfg2.win 3).blk t).view.emb (ix2 p q)) 1) := fun k => by
    funext a; apply Fin.ext
    match a with
    | ⟨0, _⟩ => show win2_2.index t (0 : Fin 2) * 256 + 1 * k.val = k.val; omega
    | ⟨1, _⟩ => show win2_2.index t (1 : Fin 2) * 128 + 1 * q.val = win2_3.index t (1 : Fin 2) * 128 + 1 * q.val; omega
  -- for any three arrays: the tile's sum over the blocks' entries is the layer's entry at the block's place in the array
  have key : ∀ (A : FVec Ideal S20000x256 .f32) (b : FVec Ideal S1x256 .f32) (B : FVec Ideal S256x128 .f32),
      (∑ k : Fin 256, max (A (((cfg2.win 0).blk t).view.emb (ix2 p k)) + b (((cfg2.win 1).blk t).view.emb (ix2 (0 : Fin 1) k)))
          (Ideal.ofBits .f32 0x00000000#32) * B (((cfg2.win 2).blk t).view.emb (ix2 k q)))
        = reluDense (M := 20000) (K := 256) (N := 128) (Ideal.ofBits .f32 0x00000000#32) A b B (((cfg2.win 3).blk t).view.emb (ix2 p q)) := by
    intro A b B
    unfold reluDense
    exact Finset.sum_congr rfl fun k _ => by rw [h0 k, h1 k, h2 k]
  exact key (V c main_v63) (V c main_v64) (V c main_arg7)

/-- An index of the result is in point `t`'s block iff each coordinate is in the block's range on its axis. -/
theorem mem_block (t : Fin cfg2.N) (i : S20000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v65).slice (win2_3.rect t)).set ↔ _
  rw [View.set_slice_whole, Rect.mem_set_unit]
  exact Iff.rfl

/-- The ten blocks tile the result: row `r` is in the block of the point at row block `r / 2000`. -/
theorem covered (i : S20000x128.Idx) :
    ∃ t : Fin cfg2.N, (cfg2.win 3).flush t = true ∧ i ∈ ((cfg2.win 3).blk t).view.set := by
  have hi0 : (i 0).val < 20000 := (i 0).isLt
  have hi1 : (i 1).val < 128 := (i 1).isLt
  obtain ⟨t, ht⟩ := blocks_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- After the launch the result array is the layer of the aggregate, the bias row and the weight as the launch found them. -/
theorem result (c : Dev nD) :
    (dat2 (F := Ideal) V c).arrAt 3 cfg2.N
      = reluDense (M := 20000) (K := 256) (N := 128) (Ideal.ofBits .f32 0x00000000#32) (V c main_v63) (V c main_v64) (V c main_arg7) :=
  (dat2 V c).arrAt_eq_of_cover 3 _ (fun t _ => written_back V c t) covered

end Cert.KernelIdeal.Layer3

end
-- ==== Proof.Head.lean ====
/-
  The fourth launch: the head, `pooled · Wl + bl`, in one grid point.

  The grid has a single point. It stages the whole `[64, 128]` pooled features, the whole `[128, 2]` weight and the
  one-row bias; the body multiplies on the matrix unit into a zero accumulator and adds the bias row to every row; the
  `[64, 2]` result is written back whole. Entry `(p, q)` is the sum over `k` of `pooled (p, k) · Wl (k, q)` plus
  `bl (0, q)`. The one block is the whole result, so the result array is that layer of the arrays as the launch found
  them. For any entry contents `V`.
-/
import proofs.«136179_j61770219651386_1_alg».proof.Proof.Gen.KernelIdeal.Frame
import proofs.«136179_j61770219651386_1_alg».proof.Proof.LibDenseLayer

set_option maxRecDepth 16384

noncomputable section

namespace Cert.KernelIdeal.Head

open Idealize.ShloMosaic Idealize.ShloMosaic.TcCoe Idealize.SL.Sem
open Idealize.ShloMosaic.Pipeline (Dat Cfg Window)
open Idealize.ShloMosaic.ValueIdx Idealize.ShloMosaic.DenseLayer
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at `(p, q)`: the product's entry plus the bias row's entry. -/
theorem tile_apply (x0 : Vec Ideal S64x128 .f32) (x1 : Vec Ideal S128x2 .f32) (x2 : Vec Ideal S1x2 .f32)
    (p : Fin 64) (q : Fin 2) :
    k3_pay1 (F := Ideal) x0 x1 x2 (ix2 p q)
      = (∑ k : Fin 128, x0 (ix2 p k) * x1 (ix2 k q)) + x2 (ix2 (0 : Fin 1) q) := by
  unfold k3_pay1
  exact matmulBias_tile (R := 64) (K := 128) (N := 2) dot_S64x128_S128x2_S64x2_1_0_0_1_n_n.wf none bitsLt_bf16_f32
    shapeCasts_S64x128_S64x128 shapeCasts_S1x2_S1x2 broadcasts_S1x2_S64x2 x0 x1 x2 p q

/-- All four windows' blocks sit at the origin at the one grid point. -/
theorem blocks_at : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0 :=
  (by decide +kernel : ∀ t : Fin grid3.N, _)

/-- What the point writes back is the whole layer of the arrays as the launch finds them. -/
theorem written_back (c : Dev nD) (t : Fin cfg3.N) :
    (dat3 (F := Ideal) V c).flushed 3 t
      = ((cfg3.win 3).blk t).view.read (Elt Ideal)
          (denseBias (M := 64) (K := 128) (N := 2) (V c main_v92) (V c main_arg9) (V c main_v93)) := by
  show (cfg3.win 3).cut (grid3.coords t) ((dat3 V c).after 3 t) = _
  rw [after3_3]
  unfold out3_3
  rw [View.canon_unit_zero hz]
  simp only [View.ld_unit_zero (S := S64x128) hz, View.ld_unit_zero (S := S128x2) hz, View.ld_unit_zero (S := S1x2) hz]
  obtain ⟨e0, e1, e2, e3, e4, e5, e6, e7⟩ := blocks_at t
  funext j
  obtain ⟨p, q, rfl⟩ : ∃ (p : Fin 64) (q : Fin 2), j = ix2 p q := ⟨j 0, j 1, eq_ix2 j⟩
  refine (tile_apply (iblk3 V c 0 t) (iblk3 V c 1 t) (iblk3 V c 2 t) p q).trans ?_
  have h0 : ∀ k : Fin 128, ((cfg3.win 0).blk t).view.emb (ix2 p k)
      = ix2 (n0 := 64) ((((cfg3.win 3).blk t).view.emb (ix2 p q)) 0) k := fun k => by
    funext a; apply Fin.ext
    match a with
    | ⟨0, _⟩ => show win3_0.index t (0 : Fin 2) * 64 + 1 * p.val = win3_3.index t (0 : Fin 2) * 64 + 1 * p.val; omega
    | ⟨1, _⟩ => show win3_0.index t (1 : Fin 2) * 128 + 1 * k.val = k.val; omega
  have h1 : ∀ k : Fin 128, ((cfg3.win 1).blk t).view.emb (ix2 k q)
      = ix2 (n1 := 2) k ((((cfg3.win 3).blk t).view.emb (ix2 p q)) 1) := fun k => by
    funext a; apply Fin.ext
    match a with
    | ⟨0, _⟩ => show win3_1.index t (0 : Fin 2) * 128 + 1 * k.val = k.val; omega
    | ⟨1, _⟩ => show win3_1.index t (1 : Fin 2) * 2 + 1 * q.val = win3_3.index t (1 : Fin 2) * 2 + 1 * q.val; omega
  have h2 : ((cfg3.win 2).blk t).view.emb (ix2 (0 : Fin 1) q)
      = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 2 + 1 * q.val = win3_3.index t (1 : Fin 2) * 2 + 1 * q.val; omega
  -- for any three arrays: the body's value over the blocks' entries is the layer's entry at the block's place in the array
  have key : ∀ (A : FVec Ideal S64x128 .f32) (B : FVec Ideal S128x2 .f32) (b : FVec Ideal S1x2 .f32),
      (∑ k : Fin 128, A (((cfg3.win 0).blk t).view.emb (ix2 p k)) * B (((cfg3.win 1).blk t).view.emb (ix2 k q)))
          + b (((cfg3.win 2).blk t).view.emb (ix2 (0 : Fin 1) q))
        = denseBias (M := 64) (K := 128) (N := 2) A B b (((cfg3.win 3).blk t).view.emb (ix2 p q)) := by
    intro A B b
    unfold denseBias
    rw [h2]
    exact congrArg (· + b (ix2 (0 : Fin 1) ((((cfg3.win 3).blk t).view.emb (ix2 p q)) 1)))
      (Finset.sum_congr rfl fun k _ => by rw [h0 k, h1 k])
  exact key (V c main_v92) (V c main_arg9) (V c main_v93)

/-- An index of the result is in the point's block iff each coordinate is in the block's range on its axis. -/
theorem mem_block (t : Fin cfg3.N) (i : S64x2.Idx) :
    i ∈ ((cfg3.win 3).blk t).view.set ↔ ∀ a : Fin 2, win3_3.index t a * S64x2.size a ≤ (i a).val ∧ (i a).val < win3_3.index t a * S64x2.size a + S64x2.size a := by
  show i ∈ ((View.whole main_v94).slice (win3_3.rect t)).set ↔ _
  rw [View.set_slice_whole, Rect.mem_set_unit]
  exact Iff.rfl

/-- The one block is the whole result. -/
theorem covered (i : S64x2.Idx) :
    ∃ t : Fin cfg3.N, (cfg3.win 3).flush t = true ∧ i ∈ ((cfg3.win 3).blk t).view.set := by
  have hi0 : (i 0).val < 64 := (i 0).isLt
  have hi1 : (i 1).val < 2 := (i 1).isLt
  obtain ⟨e0, e1, e2, e3, e4, e5, e6, e7⟩ := blocks_at t3_0
  refine ⟨t3_0, flush3_3 t3_0, ?_⟩
  rw [mem_block]
  intro a
  match a with
  | ⟨0, _⟩ => show win3_3.index t3_0 (0 : Fin 2) * 64 ≤ (i 0).val ∧ (i 0).val < win3_3.index t3_0 (0 : Fin 2) * 64 + 64; omega
  | ⟨1, _⟩ => show win3_3.index t3_0 (1 : Fin 2) * 2 ≤ (i 1).val ∧ (i 1).val < win3_3.index t3_0 (1 : Fin 2) * 2 + 2; omega

/-- After the launch the result array is the head's layer of the pooled features, the weight and the bias row as the
    launch found them. -/
theorem result (c : Dev nD) :
    (dat3 (F := Ideal) V c).arrAt 3 cfg3.N
      = denseBias (M := 64) (K := 128) (N := 2) (V c main_v92) (V c main_arg9) (V c main_v93) :=
  (dat3 V c).arrAt_eq_of_cover 3 _ (fun t _ => written_back V c t) covered

end Cert.KernelIdeal.Head

end
-- ==== Proof.Stretch0.lean ====
/-
  The host operations before the first launch: the graph's index vectors and its normalisation.

  From the edge list alone the program builds the source and the target of every edge with a self-loop appended per
  node, counts each node's in-degree by adding one per target, takes the reciprocal square root of the degree where it is
  positive and zero elsewhere, and multiplies the two ends' values per edge: the symmetric normalisation. These are the
  reference's operations `%1 … %35` on the same edge list, so the three buffers hold the reference's sources, targets and
  normalisation of the edge list the stretch starts from. No argument array is written.
-/
import proofs.«136179_j61770219651386_1_alg».proof.Proof.Gen.KernelIdeal.Launch
import proofs.«136179_j61770219651386_1_alg».proof.Proof.RefRead
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- The edge sources, self-loops appended. -/
theorem sources (W : Valuation τ sig (Elt F)) :
    after hostOps0_2 (after hostOps0_1 (after hostOps0 W)) (Proc.devRef .tc main_v3) = Cert.ReferenceIdeal.ReadP.val_main_v4 (W (Proc.devRef .tc main_arg1)) := by
  after_results_simp
  rfl

set_option maxHeartbeats 4000000 in
/-- The edge targets, self-loops appended. -/
theorem targets (W : Valuation τ sig (Elt F)) :
    after hostOps0_2 (after hostOps0_1 (after hostOps0 W)) (Proc.devRef .tc main_v6) = Cert.ReferenceIdeal.ReadP.val_main_v7 (W (Proc.devRef .tc main_arg1)) := by
  after_results_simp
  rfl

set_option maxHeartbeats 4000000 in
/-- The symmetric normalisation per edge. -/
theorem normalisation (W : Valuation τ sig (Elt F)) :
    after hostOps0_2 (after hostOps0_1 (after hostOps0 W)) (Proc.devRef .tc main_v34) = Cert.ReferenceIdeal.ReadP.val_main_v35 (W (Proc.devRef .tc main_arg1)) := by
  after_results_simp
  rfl

/-! The argument arrays pass through. -/
set_option maxHeartbeats 4000000 in
theorem keep0_arg0 (W : Valuation τ sig (Elt F)) : after hostOps0_2 (after hostOps0_1 (after hostOps0 W)) (Proc.devRef .tc main_arg0) = W (Proc.devRef .tc main_arg0) := by
  after_results_simp
set_option maxHeartbeats 4000000 in
theorem keep0_arg2 (W : Valuation τ sig (Elt F)) : after hostOps0_2 (after hostOps0_1 (after hostOps0 W)) (Proc.devRef .tc main_arg2) = W (Proc.devRef .tc main_arg2) := by
  after_results_simp
set_option maxHeartbeats 4000000 in
theorem keep0_arg3 (W : Valuation τ sig (Elt F)) : after hostOps0_2 (after hostOps0_1 (after hostOps0 W)) (Proc.devRef .tc main_arg3) = W (Proc.devRef .tc main_arg3) := by
  after_results_simp
set_option maxHeartbeats 4000000 in
theorem keep0_arg4 (W : Valuation τ sig (Elt F)) : after hostOps0_2 (after hostOps0_1 (after hostOps0 W)) (Proc.devRef .tc main_arg4) = W (Proc.devRef .tc main_arg4) := by
  after_results_simp
set_option maxHeartbeats 4000000 in
theorem keep0_arg5 (W : Valuation τ sig (Elt F)) : after hostOps0_2 (after hostOps0_1 (after hostOps0 W)) (Proc.devRef .tc main_arg5) = W (Proc.devRef .tc main_arg5) := by
  after_results_simp
set_option maxHeartbeats 4000000 in
theorem keep0_arg6 (W : Valuation τ sig (Elt F)) : after hostOps0_2 (after hostOps0_1 (after hostOps0 W)) (Proc.devRef .tc main_arg6) = W (Proc.devRef .tc main_arg6) := by
  after_results_simp
set_option maxHeartbeats 4000000 in
theorem keep0_arg7 (W : Valuation τ sig (Elt F)) : after hostOps0_2 (after hostOps0_1 (after hostOps0 W)) (Proc.devRef .tc main_arg7) = W (Proc.devRef .tc main_arg7) := by
  after_results_simp
set_option maxHeartbeats 4000000 in
theorem keep0_arg8 (W : Valuation τ sig (Elt F)) : after hostOps0_2 (after hostOps0_1 (after hostOps0 W)) (Proc.devRef .tc main_arg8) = W (Proc.devRef .tc main_arg8) := by
  after_results_simp
set_option maxHeartbeats 4000000 in
theorem keep0_arg9 (W : Valuation τ sig (Elt F)) : after hostOps0_2 (after hostOps0_1 (after hostOps0 W)) (Proc.devRef .tc main_arg9) = W (Proc.devRef .tc main_arg9) := by
  after_results_simp
set_option maxHeartbeats 4000000 in
theorem keep0_arg10 (W : Valuation τ sig (Elt F)) : after hostOps0_2 (after hostOps0_1 (after hostOps0 W)) (Proc.devRef .tc main_arg10) = W (Proc.devRef .tc main_arg10) := by
  after_results_simp

end Cert.KernelIdeal.Stretch

end
-- ==== Proof.Stretch1.lean ====
/-
  The host operations between the first and the second launch: the first aggregation.

  From the product `h = x · W1` the program gathers the source row of every edge (self-loops appended), scales it by
  the edge's symmetric normalisation, and adds it into the target row: the `[20000, 512]` array the second launch
  takes. It also views the bias `b1` as a one-row array. These are the reference's own operations `%36 … %48` applied
  to the same values, so whenever the buffers the stretch reads hold the reference's product, edge sources, edge targets
  and normalisation, the buffer it writes holds the reference's aggregate. The index vectors, the normalisation and the
  argument arrays pass through untouched.
-/
import proofs.«136179_j61770219651386_1_alg».proof.Proof.Gen.KernelIdeal.Launch
import proofs.«136179_j61770219651386_1_alg».proof.Proof.RefRead
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- The first aggregate: the reference's, when the stretch starts from the reference's product, sources, targets and
    normalisation. -/
theorem aggregate1 (W : Valuation τ sig (Elt F))
    (x0 : (⟨Cert.ReferenceIdeal.S20000x128, .f32⟩ : BufTy).Contents (Elt F)) (x1 : (⟨Cert.ReferenceIdeal.S2x320000, .i32⟩ : BufTy).Contents (Elt F))
    (x3 : (⟨Cert.ReferenceIdeal.S128x512, .f32⟩ : BufTy).Contents (Elt F))
    (h35 : W (Proc.devRef .tc main_v35) = Cert.ReferenceIdeal.ReadP.val_main_v0 x0 x3)
    (h3 : W (Proc.devRef .tc main_v3) = Cert.ReferenceIdeal.ReadP.val_main_v4 x1)
    (h6 : W (Proc.devRef .tc main_v6) = Cert.ReferenceIdeal.ReadP.val_main_v7 x1)
    (h34 : W (Proc.devRef .tc main_v34) = Cert.ReferenceIdeal.ReadP.val_main_v35 x1) :
    after hostOps1 W (Proc.devRef .tc main_v48) = Cert.ReferenceIdeal.ReadP.val_main_v48 x0 x1 x3 := by
  after_results_simp
  rw [h35, h3, h6, h34]
  rfl

set_option maxHeartbeats 4000000 in
/-- The bias of the first layer viewed as one row. -/
theorem biasRow1 (W : Valuation τ sig (Elt F)) :
    after hostOps1 W (Proc.devRef .tc main_v49) = shapeCast S1x512 (W (Proc.devRef .tc main_arg4)) shapeCasts_S512_S1x512 := by
  after_results_simp
  rfl

set_option maxHeartbeats 4000000 in
/-- What the stretch does not write it leaves: the index vectors, the normalisation, the arguments. -/
theorem keep1_v3 (W : Valuation τ sig (Elt F)) : after hostOps1 W (Proc.devRef .tc main_v3) = W (Proc.devRef .tc main_v3) := by
  after_results_simp
set_option maxHeartbeats 4000000 in
theorem keep1_v6 (W : Valuation τ sig (Elt F)) : after hostOps1 W (Proc.devRef .tc main_v6) = W (Proc.devRef .tc main_v6) := by
  after_results_simp
set_option maxHeartbeats 4000000 in
theorem keep1_v34 (W : Valuation τ sig (Elt F)) : after hostOps1 W (Proc.devRef .tc main_v34) = W (Proc.devRef .tc main_v34) := by
  after_results_simp
set_option maxHeartbeats 4000000 in
theorem keep1_arg5 (W : Valuation τ sig (Elt F)) : after hostOps1 W (Proc.devRef .tc main_arg5) = W (Proc.devRef .tc main_arg5) := by
  after_results_simp
set_option maxHeartbeats 4000000 in
theorem keep1_arg2 (W : Valuation τ sig (Elt F)) : after hostOps1 W (Proc.devRef .tc main_arg2) = W (Proc.devRef .tc main_arg2) := by
  after_results_simp
set_option maxHeartbeats 4000000 in
theorem keep1_arg6 (W : Valuation τ sig (Elt F)) : after hostOps1 W (Proc.devRef .tc main_arg6) = W (Proc.devRef .tc main_arg6) := by
  after_results_simp
set_option maxHeartbeats 4000000 in
theorem keep1_arg7 (W : Valuation τ sig (Elt F)) : after hostOps1 W (Proc.devRef .tc main_arg7) = W (Proc.devRef .tc main_arg7) := by
  after_results_simp
set_option maxHeartbeats 4000000 in
theorem keep1_arg8 (W : Valuation τ sig (Elt F)) : after hostOps1 W (Proc.devRef .tc main_arg8) = W (Proc.devRef .tc main_arg8) := by
  after_results_simp
set_option maxHeartbeats 4000000 in
theorem keep1_arg9 (W : Valuation τ sig (Elt F)) : after hostOps1 W (Proc.devRef .tc main_arg9) = W (Proc.devRef .tc main_arg9) := by
  after_results_simp
set_option maxHeartbeats 4000000 in
theorem keep1_arg10 (W : Valuation τ sig (Elt F)) : after hostOps1 W (Proc.devRef .tc main_arg10) = W (Proc.devRef .tc main_arg10) := by
  after_results_simp

end Cert.KernelIdeal.Stretch

end
-- ==== Proof.Stretch2.lean ====
/-
  The host operations between the second and the third launch: the second aggregation.

  The same gather, scale and scatter-add as after the first launch, now of the `[20000, 256]` product of the second
  layer, and the bias `b2` viewed as one row. The reference's operations `%89 … %101` on the same values.
-/
import proofs.«136179_j61770219651386_1_alg».proof.Proof.Gen.KernelIdeal.Launch
import proofs.«136179_j61770219651386_1_alg».proof.Proof.RefRead
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- The second aggregate: the reference's, when the stretch starts from the reference's second product, sources, targets
    and normalisation. -/
theorem aggregate2 (W : Valuation τ sig (Elt F)) (x0 : (⟨Cert.ReferenceIdeal.S20000x128, .f32⟩ : BufTy).Contents (Elt F)) (x1 : (⟨Cert.ReferenceIdeal.S2x320000, .i32⟩ : BufTy).Contents (Elt F)) (x3 : (⟨Cert.ReferenceIdeal.S128x512, .f32⟩ : BufTy).Contents (Elt F)) (x4 : (⟨Cert.ReferenceIdeal.S512, .f32⟩ : BufTy).Contents (Elt F)) (x5 : (⟨Cert.ReferenceIdeal.S512x256, .f32⟩ : BufTy).Contents (Elt F))
    (h50 : W (Proc.devRef .tc main_v50) = Cert.ReferenceIdeal.ReadP.val_main_v53 x0 x1 x3 x4 x5)
    (h3 : W (Proc.devRef .tc main_v3) = Cert.ReferenceIdeal.ReadP.val_main_v57 x1)
    (h6 : W (Proc.devRef .tc main_v6) = Cert.ReferenceIdeal.ReadP.val_main_v60 x1)
    (h34 : W (Proc.devRef .tc main_v34) = Cert.ReferenceIdeal.ReadP.val_main_v88 x1) :
    after hostOps2 W (Proc.devRef .tc main_v63) = Cert.ReferenceIdeal.ReadP.val_main_v101 x0 x1 x3 x4 x5 := by
  after_results_simp
  rw [h50, h3, h6, h34]
  rfl

set_option maxHeartbeats 4000000 in
/-- The bias of the second layer viewed as one row. -/
theorem biasRow2 (W : Valuation τ sig (Elt F)) :
    after hostOps2 W (Proc.devRef .tc main_v64) = shapeCast S1x256 (W (Proc.devRef .tc main_arg6)) shapeCasts_S256_S1x256 := by
  after_results_simp
  rfl

/-! What the stretch does not write it leaves. -/
set_option maxHeartbeats 4000000 in
theorem keep2_v3 (W : Valuation τ sig (Elt F)) : after hostOps2 W (Proc.devRef .tc main_v3) = W (Proc.devRef .tc main_v3) := by
  after_results_simp
set_option maxHeartbeats 4000000 in
theorem keep2_v6 (W : Valuation τ sig (Elt F)) : after hostOps2 W (Proc.devRef .tc main_v6) = W (Proc.devRef .tc main_v6) := by
  after_results_simp
set_option maxHeartbeats 4000000 in
theorem keep2_v34 (W : Valuation τ sig (Elt F)) : after hostOps2 W (Proc.devRef .tc main_v34) = W (Proc.devRef .tc main_v34) := by
  after_results_simp
set_option maxHeartbeats 4000000 in
theorem keep2_arg2 (W : Valuation τ sig (Elt F)) : after hostOps2 W (Proc.devRef .tc main_arg2) = W (Proc.devRef .tc main_arg2) := by
  after_results_simp
set_option maxHeartbeats 4000000 in
theorem keep2_arg7 (W : Valuation τ sig (Elt F)) : after hostOps2 W (Proc.devRef .tc main_arg7) = W (Proc.devRef .tc main_arg7) := by
  after_results_simp
set_option maxHeartbeats 4000000 in
theorem keep2_arg8 (W : Valuation τ sig (Elt F)) : after hostOps2 W (Proc.devRef .tc main_arg8) = W (Proc.devRef .tc main_arg8) := by
  after_results_simp
set_option maxHeartbeats 4000000 in
theorem keep2_arg9 (W : Valuation τ sig (Elt F)) : after hostOps2 W (Proc.devRef .tc main_arg9) = W (Proc.devRef .tc main_arg9) := by
  after_results_simp
set_option maxHeartbeats 4000000 in
theorem keep2_arg10 (W : Valuation τ sig (Elt F)) : after hostOps2 W (Proc.devRef .tc main_arg10) = W (Proc.devRef .tc main_arg10) := by
  after_results_simp

end Cert.KernelIdeal.Stretch

end
-- ==== Proof.Stretch3.lean ====
/-
  The host operations between the third and the fourth launch: the third aggregation, its bias, and the mean pool.

  The third layer's `[20000, 128]` product is gathered, scaled and added into the target rows as before; the bias `b3`
  is added to every row; the rows of each graph are summed into that graph's row of a `[64, 128]` array and divided by
  the graph's node count, the count kept at least one. The bias `bl` of the head is viewed as one row. These are the
  reference's operations `%142 … %168` on the same values.
-/
import proofs.«136179_j61770219651386_1_alg».proof.Proof.Gen.KernelIdeal.Launch
import proofs.«136179_j61770219651386_1_alg».proof.Proof.RefRead
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- The pooled features: the reference's, when the stretch starts from the reference's third product, sources, targets,
    normalisation, third bias and graph assignment. -/
theorem pooled (W : Valuation τ sig (Elt F)) (x0 : (⟨Cert.ReferenceIdeal.S20000x128, .f32⟩ : BufTy).Contents (Elt F)) (x1 : (⟨Cert.ReferenceIdeal.S2x320000, .i32⟩ : BufTy).Contents (Elt F)) (x2 : (⟨Cert.ReferenceIdeal.S20000, .i32⟩ : BufTy).Contents (Elt F)) (x3 : (⟨Cert.ReferenceIdeal.S128x512, .f32⟩ : BufTy).Contents (Elt F)) (x4 : (⟨Cert.ReferenceIdeal.S512, .f32⟩ : BufTy).Contents (Elt F)) (x5 : (⟨Cert.ReferenceIdeal.S512x256, .f32⟩ : BufTy).Contents (Elt F)) (x6 : (⟨Cert.ReferenceIdeal.S256, .f32⟩ : BufTy).Contents (Elt F)) (x7 : (⟨Cert.ReferenceIdeal.S256x128, .f32⟩ : BufTy).Contents (Elt F)) (x8 : (⟨Cert.ReferenceIdeal.S128, .f32⟩ : BufTy).Contents (Elt F))
    (h65 : W (Proc.devRef .tc main_v65) = Cert.ReferenceIdeal.ReadP.val_main_v106 x0 x1 x3 x4 x5 x6 x7)
    (h3 : W (Proc.devRef .tc main_v3) = Cert.ReferenceIdeal.ReadP.val_main_v110 x1)
    (h6 : W (Proc.devRef .tc main_v6) = Cert.ReferenceIdeal.ReadP.val_main_v113 x1)
    (h34 : W (Proc.devRef .tc main_v34) = Cert.ReferenceIdeal.ReadP.val_main_v141 x1)
    (h8 : W (Proc.devRef .tc main_arg8) = x8)
    (h2 : W (Proc.devRef .tc main_arg2) = x2) :
    after hostOps3_2 (after hostOps3_1 (after hostOps3 W)) (Proc.devRef .tc main_v92) = Cert.ReferenceIdeal.ReadP.val_main_v168 x0 x1 x2 x3 x4 x5 x6 x7 x8 := by
  after_results_simp
  rw [h65, h3, h6, h34, h8, h2]
  rfl

set_option maxHeartbeats 4000000 in
/-- The bias of the head viewed as one row. -/
theorem biasRow3 (W : Valuation τ sig (Elt F)) :
    after hostOps3_2 (after hostOps3_1 (after hostOps3 W)) (Proc.devRef .tc main_v93) = shapeCast S1x2 (W (Proc.devRef .tc main_arg10)) shapeCasts_S2_S1x2 := by
  after_results_simp
  rfl

/-! The head's weight passes through. -/
set_option maxHeartbeats 4000000 in
theorem keep3_arg9 (W : Valuation τ sig (Elt F)) : after hostOps3_2 (after hostOps3_1 (after hostOps3 W)) (Proc.devRef .tc main_arg9) = W (Proc.devRef .tc main_arg9) := by
  after_results_simp

end Cert.KernelIdeal.Stretch

end
-- ==== Proof.RefLayers.lean ====
/-
  The reference's four products as layers of the previous stage.

  Each `dot_general` of the reference, with the elementwise operations in front of or behind it, is one dense layer of
  the stage before it, entry by entry: the first is `x · W1`; the second and third add the layer's bias to every row of
  the previous aggregate, cut off below at zero and multiply by the weight; the last multiplies the pooled features by the
  head's weight and adds the head's bias to every row. The bias enters the reference as a vector spread over the rows; read
  at a row it is the same entry as the one-row view of the vector.
-/
import proofs.«136179_j61770219651386_1_alg».proof.Proof.RefRead
import proofs.«136179_j61770219651386_1_alg».proof.Proof.LibDenseLayer

set_option maxRecDepth 16384

noncomputable section

namespace Cert.ReferenceIdeal.RefLayers

open Idealize.ShloMosaic Idealize.ShloMosaic.TcCoe Idealize.SL.Sem
open Idealize.ShloMosaic.ValueIdx Idealize.ShloMosaic.DenseLayer
open Cert.ReferenceIdeal Cert.ReferenceIdeal.ReadP

/-- The first product is the dense layer of the node features and the first weight. -/
theorem layer1 (x0 : (⟨S20000x128, .f32⟩ : BufTy).Contents (Elt Ideal)) (x3 : (⟨S128x512, .f32⟩ : BufTy).Contents (Elt Ideal)) :
    val_main_v0 (F := Ideal) x0 x3 = dense (M := 20000) (K := 128) (N := 512) x0 x3 := by
  unfold val_main_v0
  exact dotGeneral_eq_dense (M := 20000) (K := 128) (N := 512) dot_S20000x128_S128x512_S20000x512_1_0_0_1_n_n.wf none x0 x3

/-- The second product: bias `b1` added to the first aggregate, cut off at zero, times `W2`. -/
theorem layer2 (h : S512.ShapeCasts S1x512) (x0 : (⟨S20000x128, .f32⟩ : BufTy).Contents (Elt Ideal)) (x1 : (⟨S2x320000, .i32⟩ : BufTy).Contents (Elt Ideal)) (x3 : (⟨S128x512, .f32⟩ : BufTy).Contents (Elt Ideal)) (x4 : (⟨S512, .f32⟩ : BufTy).Contents (Elt Ideal)) (x5 : (⟨S512x256, .f32⟩ : BufTy).Contents (Elt Ideal)) :
    val_main_v53 (F := Ideal) x0 x1 x3 x4 x5
      = reluDense (M := 20000) (K := 512) (N := 256) (Ideal.ofBits .f32 0x00000000#32) (val_main_v48 (F := Ideal) x0 x1 x3)
          (shapeCast S1x512 x4 h) x5 := by
  funext i
  obtain ⟨p, q, rfl⟩ : ∃ (p : Fin 20000) (q : Fin 256), i = ix2 p q := ⟨i 0, i 1, eq_ix2 i⟩
  rw [val_main_v53_apply, reluDense_apply]
  refine Finset.sum_congr rfl fun k _ => ?_
  have el : lidx_main_v53 (ix2 p q) k = ix2 p k := funext fun a => Fin.ext (by match a with | ⟨0, _⟩ => rfl | ⟨1, _⟩ => rfl)
  have er : ridx_main_v53 (ix2 p q) k = ix2 k q := funext fun a => Fin.ext (by match a with | ⟨0, _⟩ => rfl | ⟨1, _⟩ => rfl)
  have eb : idx_main_v49 (idx_main_v50 (ix2 p k)) = ix1 k := funext fun a => Fin.ext (by match a with | ⟨0, _⟩ => rfl)
  rw [el, er, val_main_v52_apply, val_main_v51_apply, val_main_v50_apply, val_main_v49_apply, eb,
    val_main_call1_v0_apply, val_main_call1_cst_apply, shapeCast_a_1a_apply]
  rfl

/-- The third product: bias `b2` added to the second aggregate, cut off at zero, times `W3`. -/
theorem layer3 (h : S256.ShapeCasts S1x256) (x0 : (⟨S20000x128, .f32⟩ : BufTy).Contents (Elt Ideal)) (x1 : (⟨S2x320000, .i32⟩ : BufTy).Contents (Elt Ideal)) (x3 : (⟨S128x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x128, .f32⟩ : BufTy).Contents (Elt Ideal)) :
    val_main_v106 (F := Ideal) x0 x1 x3 x4 x5 x6 x7
      = reluDense (M := 20000) (K := 256) (N := 128) (Ideal.ofBits .f32 0x00000000#32) (val_main_v101 (F := Ideal) x0 x1 x3 x4 x5)
          (shapeCast S1x256 x6 h) x7 := by
  funext i
  obtain ⟨p, q, rfl⟩ : ∃ (p : Fin 20000) (q : Fin 128), i = ix2 p q := ⟨i 0, i 1, eq_ix2 i⟩
  rw [val_main_v106_apply, reluDense_apply]
  refine Finset.sum_congr rfl fun k _ => ?_
  have el : lidx_main_v106 (ix2 p q) k = ix2 p k := funext fun a => Fin.ext (by match a with | ⟨0, _⟩ => rfl | ⟨1, _⟩ => rfl)
  have er : ridx_main_v106 (ix2 p q) k = ix2 k q := funext fun a => Fin.ext (by match a with | ⟨0, _⟩ => rfl | ⟨1, _⟩ => rfl)
  have eb : idx_main_v102 (idx_main_v103 (ix2 p k)) = ix1 k := funext fun a => Fin.ext (by match a with | ⟨0, _⟩ => rfl)
  rw [el, er, val_main_v105_apply, val_main_v104_apply, val_main_v103_apply, val_main_v102_apply, eb,
    val_main_call3_v0_apply, val_main_call3_cst_apply, shapeCast_a_1a_apply]
  rfl

/-- The head: the pooled features times `Wl`, plus the bias `bl` on every row. -/
theorem head (h : S2.ShapeCasts S1x2) (x0 : (⟨S20000x128, .f32⟩ : BufTy).Contents (Elt Ideal)) (x1 : (⟨S2x320000, .i32⟩ : BufTy).Contents (Elt Ideal)) (x2 : (⟨S20000, .i32⟩ : BufTy).Contents (Elt Ideal)) (x3 : (⟨S128x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal)) :
    val_main_v172 (F := Ideal) x0 x1 x2 x3 x4 x5 x6 x7 x8 x9 x10
      = denseBias (M := 64) (K := 128) (N := 2) (val_main_v168 (F := Ideal) x0 x1 x2 x3 x4 x5 x6 x7 x8) x9 (shapeCast S1x2 x10 h) := by
  funext i
  obtain ⟨p, q, rfl⟩ : ∃ (p : Fin 64) (q : Fin 2), i = ix2 p q := ⟨i 0, i 1, eq_ix2 i⟩
  rw [val_main_v172_apply, val_main_v169_apply, denseBias_apply, val_main_v171_apply, val_main_v170_apply]
  have eb : idx_main_v170 (idx_main_v171 (ix2 p q)) = ix1 q := funext fun a => Fin.ext (by match a with | ⟨0, _⟩ => rfl)
  rw [eb, shapeCast_a_1a_apply]
  refine congrArg (· + x10 (ix1 q)) (Finset.sum_congr rfl fun k _ => ?_)
  have el : lidx_main_v169 (ix2 p q) k = ix2 p k := funext fun a => Fin.ext (by match a with | ⟨0, _⟩ => rfl | ⟨1, _⟩ => rfl)
  have er : ridx_main_v169 (ix2 p q) k = ix2 k q := funext fun a => Fin.ext (by match a with | ⟨0, _⟩ => rfl | ⟨1, _⟩ => rfl)
  rw [el, er]

/-! ## The index vectors and the normalisation are computed once per layer, from the edge list alone -/

/-- The second and third layers' edge sources, targets and normalisation are the first layer's: the same operations of
    the same edge list. -/
theorem sources2 (x1 : (⟨S2x320000, .i32⟩ : BufTy).Contents (Elt Ideal)) : val_main_v57 (F := Ideal) x1 = val_main_v4 (F := Ideal) x1 := rfl
theorem targets2 (x1 : (⟨S2x320000, .i32⟩ : BufTy).Contents (Elt Ideal)) : val_main_v60 (F := Ideal) x1 = val_main_v7 (F := Ideal) x1 := rfl
theorem norm2 (x1 : (⟨S2x320000, .i32⟩ : BufTy).Contents (Elt Ideal)) : val_main_v88 (F := Ideal) x1 = val_main_v35 (F := Ideal) x1 := rfl
theorem sources3 (x1 : (⟨S2x320000, .i32⟩ : BufTy).Contents (Elt Ideal)) : val_main_v110 (F := Ideal) x1 = val_main_v4 (F := Ideal) x1 := rfl
theorem targets3 (x1 : (⟨S2x320000, .i32⟩ : BufTy).Contents (Elt Ideal)) : val_main_v113 (F := Ideal) x1 = val_main_v7 (F := Ideal) x1 := rfl
theorem norm3 (x1 : (⟨S2x320000, .i32⟩ : BufTy).Contents (Elt Ideal)) : val_main_v141 (F := Ideal) x1 = val_main_v35 (F := Ideal) x1 := rfl

end Cert.ReferenceIdeal.RefLayers

end
-- ==== Proof.KernelValue.lean ====
/-
  The idealized kernel's result is the reference's last stage.

  The run's fold of buffer contents is walked from the launch memory to the return. Before the first launch the host
  builds, from the edge list, the edge sources and targets with self-loops and the symmetric normalisation: the reference's
  own operations. Each launch then leaves one dense layer of the arrays it finds (the launch modules), each host stretch
  between launches applies the reference's gather, scale and scatter-add (and, before the last launch, the bias and the
  mean pool) to what the launch left (the stretch modules), and the reference's products are the same layers of its own
  previous stages (the reference-layer module). So, stage by stage, the buffers hold the reference's stages of the
  arguments as launched: `x · W1`, the first aggregate, the second product, the second aggregate, the third product, the
  pooled features, and at the end the head's output. What is carried across each boundary besides the new array is what
  later stages still read: the two index vectors, the normalisation (computed once here, three times in the reference,
  from the same edge list), and the argument arrays, which nothing writes.
-/
import proofs.«136179_j61770219651386_1_alg».proof.Proof.Gen.KernelIdeal.Frame
import proofs.«136179_j61770219651386_1_alg».proof.Proof.Layer1
import proofs.«136179_j61770219651386_1_alg».proof.Proof.Layer2
import proofs.«136179_j61770219651386_1_alg».proof.Proof.Layer3
import proofs.«136179_j61770219651386_1_alg».proof.Proof.Head
import proofs.«136179_j61770219651386_1_alg».proof.Proof.Stretch0
import proofs.«136179_j61770219651386_1_alg».proof.Proof.Stretch1
import proofs.«136179_j61770219651386_1_alg».proof.Proof.Stretch2
import proofs.«136179_j61770219651386_1_alg».proof.Proof.Stretch3
import proofs.«136179_j61770219651386_1_alg».proof.Proof.RefLayers

set_option maxRecDepth 16384

noncomputable section

namespace Cert.KernelIdeal.KValue

open Idealize.ShloMosaic Idealize.ShloMosaic.TcCoe Idealize.SL.Sem Idealize.ShloMosaic.StableHlo
open Idealize.ShloMosaic.DenseLayer
open Cert.KernelIdeal Cert.KernelIdeal.Gen

variable (m : (ℓ : Loc nD τ sig) → Buf (Elt Ideal) ℓ) (ρ : Dev nD → PrngReg) (c : Dev nD)

/-! ## Before the first launch -/

theorem s3_v3 : W3 m ρ c (Proc.devRef .tc main_v3) = Cert.ReferenceIdeal.ReadP.val_main_v4 (m ((c : Thread nD τ).loc main_arg1)) := Stretch.sources (W0 m ρ c)
theorem s3_v6 : W3 m ρ c (Proc.devRef .tc main_v6) = Cert.ReferenceIdeal.ReadP.val_main_v7 (m ((c : Thread nD τ).loc main_arg1)) := Stretch.targets (W0 m ρ c)
theorem s3_v34 : W3 m ρ c (Proc.devRef .tc main_v34) = Cert.ReferenceIdeal.ReadP.val_main_v35 (m ((c : Thread nD τ).loc main_arg1)) := Stretch.normalisation (W0 m ρ c)
theorem s3_arg0 : W3 m ρ c (Proc.devRef .tc main_arg0) = (m ((c : Thread nD τ).loc main_arg0)) := Stretch.keep0_arg0 (W0 m ρ c)
theorem s3_arg2 : W3 m ρ c (Proc.devRef .tc main_arg2) = (m ((c : Thread nD τ).loc main_arg2)) := Stretch.keep0_arg2 (W0 m ρ c)
theorem s3_arg3 : W3 m ρ c (Proc.devRef .tc main_arg3) = (m ((c : Thread nD τ).loc main_arg3)) := Stretch.keep0_arg3 (W0 m ρ c)
theorem s3_arg4 : W3 m ρ c (Proc.devRef .tc main_arg4) = (m ((c : Thread nD τ).loc main_arg4)) := Stretch.keep0_arg4 (W0 m ρ c)
theorem s3_arg5 : W3 m ρ c (Proc.devRef .tc main_arg5) = (m ((c : Thread nD τ).loc main_arg5)) := Stretch.keep0_arg5 (W0 m ρ c)
theorem s3_arg6 : W3 m ρ c (Proc.devRef .tc main_arg6) = (m ((c : Thread nD τ).loc main_arg6)) := Stretch.keep0_arg6 (W0 m ρ c)
theorem s3_arg7 : W3 m ρ c (Proc.devRef .tc main_arg7) = (m ((c : Thread nD τ).loc main_arg7)) := Stretch.keep0_arg7 (W0 m ρ c)
theorem s3_arg8 : W3 m ρ c (Proc.devRef .tc main_arg8) = (m ((c : Thread nD τ).loc main_arg8)) := Stretch.keep0_arg8 (W0 m ρ c)
theorem s3_arg9 : W3 m ρ c (Proc.devRef .tc main_arg9) = (m ((c : Thread nD τ).loc main_arg9)) := Stretch.keep0_arg9 (W0 m ρ c)
theorem s3_arg10 : W3 m ρ c (Proc.devRef .tc main_arg10) = (m ((c : Thread nD τ).loc main_arg10)) := Stretch.keep0_arg10 (W0 m ρ c)

/-! ## The first launch: `x · W1` -/

theorem s4_v35 : W4 m ρ c (Proc.devRef .tc main_v35) = Cert.ReferenceIdeal.ReadP.val_main_v0 (m ((c : Thread nD τ).loc main_arg0)) (m ((c : Thread nD τ).loc main_arg3)) :=
  (W4_arr m ρ c 2).trans ((Layer1.result (V3 m ρ) c).trans (by
    show dense (M := 20000) (K := 128) (N := 512) (W3 m ρ c (Proc.devRef .tc main_arg0)) (W3 m ρ c (Proc.devRef .tc main_arg3)) = _
    rw [s3_arg0 m ρ c, s3_arg3 m ρ c]
    exact (Cert.ReferenceIdeal.RefLayers.layer1 _ _).symm))
theorem s4_v3 : W4 m ρ c (Proc.devRef .tc main_v3) = Cert.ReferenceIdeal.ReadP.val_main_v4 (m ((c : Thread nD τ).loc main_arg1)) :=
  (W4_of_ne m ρ c main_v3 (by decide)).trans (s3_v3 m ρ c)
theorem s4_v6 : W4 m ρ c (Proc.devRef .tc main_v6) = Cert.ReferenceIdeal.ReadP.val_main_v7 (m ((c : Thread nD τ).loc main_arg1)) :=
  (W4_of_ne m ρ c main_v6 (by decide)).trans (s3_v6 m ρ c)
theorem s4_v34 : W4 m ρ c (Proc.devRef .tc main_v34) = Cert.ReferenceIdeal.ReadP.val_main_v35 (m ((c : Thread nD τ).loc main_arg1)) :=
  (W4_of_ne m ρ c main_v34 (by decide)).trans (s3_v34 m ρ c)
theorem s4_arg2 : W4 m ρ c (Proc.devRef .tc main_arg2) = (m ((c : Thread nD τ).loc main_arg2)) :=
  (W4_of_ne m ρ c main_arg2 (by decide)).trans (s3_arg2 m ρ c)
theorem s4_arg4 : W4 m ρ c (Proc.devRef .tc main_arg4) = (m ((c : Thread nD τ).loc main_arg4)) :=
  (W4_of_ne m ρ c main_arg4 (by decide)).trans (s3_arg4 m ρ c)
theorem s4_arg5 : W4 m ρ c (Proc.devRef .tc main_arg5) = (m ((c : Thread nD τ).loc main_arg5)) :=
  (W4_of_ne m ρ c main_arg5 (by decide)).trans (s3_arg5 m ρ c)
theorem s4_arg6 : W4 m ρ c (Proc.devRef .tc main_arg6) = (m ((c : Thread nD τ).loc main_arg6)) :=
  (W4_of_ne m ρ c main_arg6 (by decide)).trans (s3_arg6 m ρ c)
theorem s4_arg7 : W4 m ρ c (Proc.devRef .tc main_arg7) = (m ((c : Thread nD τ).loc main_arg7)) :=
  (W4_of_ne m ρ c main_arg7 (by decide)).trans (s3_arg7 m ρ c)
theorem s4_arg8 : W4 m ρ c (Proc.devRef .tc main_arg8) = (m ((c : Thread nD τ).loc main_arg8)) :=
  (W4_of_ne m ρ c main_arg8 (by decide)).trans (s3_arg8 m ρ c)
theorem s4_arg9 : W4 m ρ c (Proc.devRef .tc main_arg9) = (m ((c : Thread nD τ).loc main_arg9)) :=
  (W4_of_ne m ρ c main_arg9 (by decide)).trans (s3_arg9 m ρ c)
theorem s4_arg10 : W4 m ρ c (Proc.devRef .tc main_arg10) = (m ((c : Thread nD τ).loc main_arg10)) :=
  (W4_of_ne m ρ c main_arg10 (by decide)).trans (s3_arg10 m ρ c)

/-! ## The first aggregation -/

theorem s5_v48 : W5 m ρ c (Proc.devRef .tc main_v48) = Cert.ReferenceIdeal.ReadP.val_main_v48 (m ((c : Thread nD τ).loc main_arg0)) (m ((c : Thread nD τ).loc main_arg1)) (m ((c : Thread nD τ).loc main_arg3)) :=
  Stretch.aggregate1 (W4 m ρ c) _ _ _ (s4_v35 m ρ c) (s4_v3 m ρ c) (s4_v6 m ρ c) (s4_v34 m ρ c)
theorem s5_v49 : W5 m ρ c (Proc.devRef .tc main_v49) = shapeCast S1x512 (m ((c : Thread nD τ).loc main_arg4)) shapeCasts_S512_S1x512 :=
  (Stretch.biasRow1 (W4 m ρ c)).trans (by rw [s4_arg4 m ρ c])
theorem s5_v3 : W5 m ρ c (Proc.devRef .tc main_v3) = Cert.ReferenceIdeal.ReadP.val_main_v4 (m ((c : Thread nD τ).loc main_arg1)) :=
  (Stretch.keep1_v3 (W4 m ρ c)).trans (s4_v3 m ρ c)
theorem s5_v6 : W5 m ρ c (Proc.devRef .tc main_v6) = Cert.ReferenceIdeal.ReadP.val_main_v7 (m ((c : Thread nD τ).loc main_arg1)) :=
  (Stretch.keep1_v6 (W4 m ρ c)).trans (s4_v6 m ρ c)
theorem s5_v34 : W5 m ρ c (Proc.devRef .tc main_v34) = Cert.ReferenceIdeal.ReadP.val_main_v35 (m ((c : Thread nD τ).loc main_arg1)) :=
  (Stretch.keep1_v34 (W4 m ρ c)).trans (s4_v34 m ρ c)
theorem s5_arg2 : W5 m ρ c (Proc.devRef .tc main_arg2) = (m ((c : Thread nD τ).loc main_arg2)) :=
  (Stretch.keep1_arg2 (W4 m ρ c)).trans (s4_arg2 m ρ c)
theorem s5_arg5 : W5 m ρ c (Proc.devRef .tc main_arg5) = (m ((c : Thread nD τ).loc main_arg5)) :=
  (Stretch.keep1_arg5 (W4 m ρ c)).trans (s4_arg5 m ρ c)
theorem s5_arg6 : W5 m ρ c (Proc.devRef .tc main_arg6) = (m ((c : Thread nD τ).loc main_arg6)) :=
  (Stretch.keep1_arg6 (W4 m ρ c)).trans (s4_arg6 m ρ c)
theorem s5_arg7 : W5 m ρ c (Proc.devRef .tc main_arg7) = (m ((c : Thread nD τ).loc main_arg7)) :=
  (Stretch.keep1_arg7 (W4 m ρ c)).trans (s4_arg7 m ρ c)
theorem s5_arg8 : W5 m ρ c (Proc.devRef .tc main_arg8) = (m ((c : Thread nD τ).loc main_arg8)) :=
  (Stretch.keep1_arg8 (W4 m ρ c)).trans (s4_arg8 m ρ c)
theorem s5_arg9 : W5 m ρ c (Proc.devRef .tc main_arg9) = (m ((c : Thread nD τ).loc main_arg9)) :=
  (Stretch.keep1_arg9 (W4 m ρ c)).trans (s4_arg9 m ρ c)
theorem s5_arg10 : W5 m ρ c (Proc.devRef .tc main_arg10) = (m ((c : Thread nD τ).loc main_arg10)) :=
  (Stretch.keep1_arg10 (W4 m ρ c)).trans (s4_arg10 m ρ c)

/-! ## The second launch: `max(agg1 + b1, 0) · W2` -/

theorem s6_v50 : W6 m ρ c (Proc.devRef .tc main_v50) = Cert.ReferenceIdeal.ReadP.val_main_v53 (m ((c : Thread nD τ).loc main_arg0)) (m ((c : Thread nD τ).loc main_arg1)) (m ((c : Thread nD τ).loc main_arg3)) (m ((c : Thread nD τ).loc main_arg4)) (m ((c : Thread nD τ).loc main_arg5)) :=
  (W6_arr m ρ c 3).trans ((Layer2.result (V5 m ρ) c).trans (by
    show reluDense (M := 20000) (K := 512) (N := 256) (Ideal.ofBits .f32 0x00000000#32)
      (W5 m ρ c (Proc.devRef .tc main_v48)) (W5 m ρ c (Proc.devRef .tc main_v49)) (W5 m ρ c (Proc.devRef .tc main_arg5)) = _
    rw [s5_v48 m ρ c, s5_v49 m ρ c, s5_arg5 m ρ c]
    exact (Cert.ReferenceIdeal.RefLayers.layer2 shapeCasts_S512_S1x512 _ _ _ _ _).symm))
theorem s6_v3 : W6 m ρ c (Proc.devRef .tc main_v3) = Cert.ReferenceIdeal.ReadP.val_main_v4 (m ((c : Thread nD τ).loc main_arg1)) :=
  (W6_of_ne m ρ c main_v3 (by decide)).trans (s5_v3 m ρ c)
theorem s6_v6 : W6 m ρ c (Proc.devRef .tc main_v6) = Cert.ReferenceIdeal.ReadP.val_main_v7 (m ((c : Thread nD τ).loc main_arg1)) :=
  (W6_of_ne m ρ c main_v6 (by decide)).trans (s5_v6 m ρ c)
theorem s6_v34 : W6 m ρ c (Proc.devRef .tc main_v34) = Cert.ReferenceIdeal.ReadP.val_main_v35 (m ((c : Thread nD τ).loc main_arg1)) :=
  (W6_of_ne m ρ c main_v34 (by decide)).trans (s5_v34 m ρ c)
theorem s6_arg2 : W6 m ρ c (Proc.devRef .tc main_arg2) = (m ((c : Thread nD τ).loc main_arg2)) :=
  (W6_of_ne m ρ c main_arg2 (by decide)).trans (s5_arg2 m ρ c)
theorem s6_arg6 : W6 m ρ c (Proc.devRef .tc main_arg6) = (m ((c : Thread nD τ).loc main_arg6)) :=
  (W6_of_ne m ρ c main_arg6 (by decide)).trans (s5_arg6 m ρ c)
theorem s6_arg7 : W6 m ρ c (Proc.devRef .tc main_arg7) = (m ((c : Thread nD τ).loc main_arg7)) :=
  (W6_of_ne m ρ c main_arg7 (by decide)).trans (s5_arg7 m ρ c)
theorem s6_arg8 : W6 m ρ c (Proc.devRef .tc main_arg8) = (m ((c : Thread nD τ).loc main_arg8)) :=
  (W6_of_ne m ρ c main_arg8 (by decide)).trans (s5_arg8 m ρ c)
theorem s6_arg9 : W6 m ρ c (Proc.devRef .tc main_arg9) = (m ((c : Thread nD τ).loc main_arg9)) :=
  (W6_of_ne m ρ c main_arg9 (by decide)).trans (s5_arg9 m ρ c)
theorem s6_arg10 : W6 m ρ c (Proc.devRef .tc main_arg10) = (m ((c : Thread nD τ).loc main_arg10)) :=
  (W6_of_ne m ρ c main_arg10 (by decide)).trans (s5_arg10 m ρ c)

/-! ## The second aggregation -/

theorem s7_v63 : W7 m ρ c (Proc.devRef .tc main_v63) = Cert.ReferenceIdeal.ReadP.val_main_v101 (m ((c : Thread nD τ).loc main_arg0)) (m ((c : Thread nD τ).loc main_arg1)) (m ((c : Thread nD τ).loc main_arg3)) (m ((c : Thread nD τ).loc main_arg4)) (m ((c : Thread nD τ).loc main_arg5)) :=
  Stretch.aggregate2 (W6 m ρ c) _ _ _ _ _ (s6_v50 m ρ c)
    ((s6_v3 m ρ c).trans (Cert.ReferenceIdeal.RefLayers.sources2 _).symm) ((s6_v6 m ρ c).trans (Cert.ReferenceIdeal.RefLayers.targets2 _).symm)
    ((s6_v34 m ρ c).trans (Cert.ReferenceIdeal.RefLayers.norm2 _).symm)
theorem s7_v64 : W7 m ρ c (Proc.devRef .tc main_v64) = shapeCast S1x256 (m ((c : Thread nD τ).loc main_arg6)) shapeCasts_S256_S1x256 :=
  (Stretch.biasRow2 (W6 m ρ c)).trans (by rw [s6_arg6 m ρ c])
theorem s7_v3 : W7 m ρ c (Proc.devRef .tc main_v3) = Cert.ReferenceIdeal.ReadP.val_main_v4 (m ((c : Thread nD τ).loc main_arg1)) :=
  (Stretch.keep2_v3 (W6 m ρ c)).trans (s6_v3 m ρ c)
theorem s7_v6 : W7 m ρ c (Proc.devRef .tc main_v6) = Cert.ReferenceIdeal.ReadP.val_main_v7 (m ((c : Thread nD τ).loc main_arg1)) :=
  (Stretch.keep2_v6 (W6 m ρ c)).trans (s6_v6 m ρ c)
theorem s7_v34 : W7 m ρ c (Proc.devRef .tc main_v34) = Cert.ReferenceIdeal.ReadP.val_main_v35 (m ((c : Thread nD τ).loc main_arg1)) :=
  (Stretch.keep2_v34 (W6 m ρ c)).trans (s6_v34 m ρ c)
theorem s7_arg2 : W7 m ρ c (Proc.devRef .tc main_arg2) = (m ((c : Thread nD τ).loc main_arg2)) :=
  (Stretch.keep2_arg2 (W6 m ρ c)).trans (s6_arg2 m ρ c)
theorem s7_arg7 : W7 m ρ c (Proc.devRef .tc main_arg7) = (m ((c : Thread nD τ).loc main_arg7)) :=
  (Stretch.keep2_arg7 (W6 m ρ c)).trans (s6_arg7 m ρ c)
theorem s7_arg8 : W7 m ρ c (Proc.devRef .tc main_arg8) = (m ((c : Thread nD τ).loc main_arg8)) :=
  (Stretch.keep2_arg8 (W6 m ρ c)).trans (s6_arg8 m ρ c)
theorem s7_arg9 : W7 m ρ c (Proc.devRef .tc main_arg9) = (m ((c : Thread nD τ).loc main_arg9)) :=
  (Stretch.keep2_arg9 (W6 m ρ c)).trans (s6_arg9 m ρ c)
theorem s7_arg10 : W7 m ρ c (Proc.devRef .tc main_arg10) = (m ((c : Thread nD τ).loc main_arg10)) :=
  (Stretch.keep2_arg10 (W6 m ρ c)).trans (s6_arg10 m ρ c)

/-! ## The third launch: `max(agg2 + b2, 0) · W3` -/

theorem s8_v65 : W8 m ρ c (Proc.devRef .tc main_v65) = Cert.ReferenceIdeal.ReadP.val_main_v106 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 3).trans ((Layer3.result (V7 m ρ) c).trans (by
    show reluDense (M := 20000) (K := 256) (N := 128) (Ideal.ofBits .f32 0x00000000#32)
      (W7 m ρ c (Proc.devRef .tc main_v63)) (W7 m ρ c (Proc.devRef .tc main_v64)) (W7 m ρ c (Proc.devRef .tc main_arg7)) = _
    rw [s7_v63 m ρ c, s7_v64 m ρ c, s7_arg7 m ρ c]
    exact (Cert.ReferenceIdeal.RefLayers.layer3 shapeCasts_S256_S1x256 _ _ _ _ _ _ _).symm))
theorem s8_v3 : W8 m ρ c (Proc.devRef .tc main_v3) = Cert.ReferenceIdeal.ReadP.val_main_v4 (m ((c : Thread nD τ).loc main_arg1)) :=
  (W8_of_ne m ρ c main_v3 (by decide)).trans (s7_v3 m ρ c)
theorem s8_v6 : W8 m ρ c (Proc.devRef .tc main_v6) = Cert.ReferenceIdeal.ReadP.val_main_v7 (m ((c : Thread nD τ).loc main_arg1)) :=
  (W8_of_ne m ρ c main_v6 (by decide)).trans (s7_v6 m ρ c)
theorem s8_v34 : W8 m ρ c (Proc.devRef .tc main_v34) = Cert.ReferenceIdeal.ReadP.val_main_v35 (m ((c : Thread nD τ).loc main_arg1)) :=
  (W8_of_ne m ρ c main_v34 (by decide)).trans (s7_v34 m ρ c)
theorem s8_arg2 : W8 m ρ c (Proc.devRef .tc main_arg2) = (m ((c : Thread nD τ).loc main_arg2)) :=
  (W8_of_ne m ρ c main_arg2 (by decide)).trans (s7_arg2 m ρ c)
theorem s8_arg8 : W8 m ρ c (Proc.devRef .tc main_arg8) = (m ((c : Thread nD τ).loc main_arg8)) :=
  (W8_of_ne m ρ c main_arg8 (by decide)).trans (s7_arg8 m ρ c)
theorem s8_arg9 : W8 m ρ c (Proc.devRef .tc main_arg9) = (m ((c : Thread nD τ).loc main_arg9)) :=
  (W8_of_ne m ρ c main_arg9 (by decide)).trans (s7_arg9 m ρ c)
theorem s8_arg10 : W8 m ρ c (Proc.devRef .tc main_arg10) = (m ((c : Thread nD τ).loc main_arg10)) :=
  (W8_of_ne m ρ c main_arg10 (by decide)).trans (s7_arg10 m ρ c)

/-! ## The third aggregation, its bias, the mean pool -/

theorem s11_v92 : W11 m ρ c (Proc.devRef .tc main_v92) = Cert.ReferenceIdeal.ReadP.val_main_v168 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Stretch.pooled (W8 m ρ c) _ _ _ _ _ _ _ _ _ (s8_v65 m ρ c)
    ((s8_v3 m ρ c).trans (Cert.ReferenceIdeal.RefLayers.sources3 _).symm) ((s8_v6 m ρ c).trans (Cert.ReferenceIdeal.RefLayers.targets3 _).symm)
    ((s8_v34 m ρ c).trans (Cert.ReferenceIdeal.RefLayers.norm3 _).symm) (s8_arg8 m ρ c) (s8_arg2 m ρ c)
theorem s11_v93 : W11 m ρ c (Proc.devRef .tc main_v93) = shapeCast S1x2 (m ((c : Thread nD τ).loc main_arg10)) shapeCasts_S2_S1x2 :=
  (Stretch.biasRow3 (W8 m ρ c)).trans (by rw [s8_arg10 m ρ c])
theorem s11_arg9 : W11 m ρ c (Proc.devRef .tc main_arg9) = (m ((c : Thread nD τ).loc main_arg9)) :=
  (Stretch.keep3_arg9 (W8 m ρ c)).trans (s8_arg9 m ρ c)

/-! ## The fourth launch: the head -/

/-- When the program returns, the result buffer holds the reference's last stage of the arguments as launched. -/
theorem result : W12 m ρ c (Proc.devRef .tc main_v94) = Cert.ReferenceIdeal.ReadP.val_main_v172 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_arr m ρ c 3).trans ((Head.result (V11 m ρ) c).trans (by
    show denseBias (M := 64) (K := 128) (N := 2)
      (W11 m ρ c (Proc.devRef .tc main_v92)) (W11 m ρ c (Proc.devRef .tc main_arg9)) (W11 m ρ c (Proc.devRef .tc main_v93)) = _
    rw [s11_v92 m ρ c, s11_arg9 m ρ c, s11_v93 m ρ c]
    exact (Cert.ReferenceIdeal.RefLayers.head shapeCasts_S2_S1x2 _ _ _ _ _ _ _ _ _ _ _).symm))

end Cert.KernelIdeal.KValue

end
-- ==== Proof.RefResult.lean ====
/-
  The reference's result is its last stage.

  The reference's run ends with its result buffer at the composed term of all 228 host operations applied to the launch
  contents of the arguments. Read one operation at a time that term is the last of the named stages, the final product
  plus the output bias, as a function of the eleven argument arrays: the two are the same composition, one written out
  and one through the stages' names.
-/
import proofs.«136179_j61770219651386_1_alg».proof.Proof.RefRun
import proofs.«136179_j61770219651386_1_alg».proof.Proof.RefRead

noncomputable section

namespace Cert.ReferenceIdeal.RefResult

open Cert.ReferenceIdeal Cert.ReferenceIdeal.Gen Idealize.ShloMosaic Idealize.ShloMosaic.TcCoe Idealize.SL.Sem Idealize.ShloMosaic.StableHlo

variable {F : FTy → Type} [FloatOps F]

/-- The composed term of the run is the last stage at the arguments' launch contents. -/
theorem result_eq (m : (ℓ : Loc nD τ sig) → Buf (Elt F) ℓ) (c : Dev nD) :
    Cert.ReferenceIdeal.ValueP.res_main_v172 m c = Cert.ReferenceIdeal.ReadP.val_main_v172 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v172; rfl

end Cert.ReferenceIdeal.RefResult

end
-- ==== Proof.lean ====
/-
  A three-layer graph convolution network with mean pooling and a linear head: the kernel against its reference.

  The network, on a graph of 20000 nodes and 320000 edges in 64 graphs: with `src` and `dst` the edge list with a
  self-loop appended per node, `deg` the in-degree, `norm = d[src] · d[dst]` where `d = deg^(-1/2)` on positive degrees
  and zero elsewhere, one layer maps node features `h` to `agg(h · W) + b`, where `agg` gathers each edge's source row,
  scales it by the edge's `norm` and adds it into the target row. Three layers with a cut-off at zero after the first two,
  the mean over each graph's nodes (the node count kept at least one), and a linear head `g · Wl + bl`.

  The kernel computes the four matrix products in four launches: the three `[20000, ·]` products in ten row tiles of
  2000 rows each, the bias and the cut-off of a layer moved in front of the next layer's product, the head in one tile
  with its bias; the index vectors and the normalisation are built once and the aggregations and the pooling are the host's.
  The reference does the same with whole-array products and builds the index vectors and the normalisation once per
  layer. Over the extended reals rounding an operand to a narrower format is the identity, a tile's product into a zero
  accumulator is entry by entry the sum over the contracted coordinate in the same order as the host's product, and the
  ten tiles tile the rows: so every buffer of the kernel holds the reference's stage, and the two results are one
  function of the eleven arguments. No law that could fail at an infinity is used, so the inputs' finiteness is not.

  The three frames: the two kernels' are the launch-by-launch frame proofs; the reference's is its run with the result
  dropped. The idealization rewrote no operation, so what it preserves is nothing to prove.
-/
import proofs.«136179_j61770219651386_1_alg».proof.Defs
import proofs.«136179_j61770219651386_1_alg».proof.Proof.Gen.Kernel
import proofs.«136179_j61770219651386_1_alg».proof.Proof.Gen.Kernel.Skeleton
import proofs.«136179_j61770219651386_1_alg».proof.Proof.Gen.Kernel.Launch
import proofs.«136179_j61770219651386_1_alg».proof.Proof.Gen.Kernel.Points
import proofs.«136179_j61770219651386_1_alg».proof.Proof.Gen.Kernel.Frame
import proofs.«136179_j61770219651386_1_alg».proof.Proof.Gen.KernelIdeal
import proofs.«136179_j61770219651386_1_alg».proof.Proof.Gen.KernelIdeal.Skeleton
import proofs.«136179_j61770219651386_1_alg».proof.Proof.Gen.KernelIdeal.Launch
import proofs.«136179_j61770219651386_1_alg».proof.Proof.Gen.KernelIdeal.Points
import proofs.«136179_j61770219651386_1_alg».proof.Proof.Gen.KernelIdeal.Frame
import proofs.«136179_j61770219651386_1_alg».proof.Proof.Gen.ReferenceIdeal
import proofs.«136179_j61770219651386_1_alg».proof.Proof.Gen.Pre_finite_inputs
import proofs.«136179_j61770219651386_1_alg».proof.Proof.KernelRun
import proofs.«136179_j61770219651386_1_alg».proof.Proof.KernelValue
import proofs.«136179_j61770219651386_1_alg».proof.Proof.RefRun
import proofs.«136179_j61770219651386_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the result buffer at the reference's last stage of
    those arguments: the kernel's by the walk through its fold of contents, the reference's by its run read back. -/
theorem algebraic : Cert.algebraic_KernelIdeal_ReferenceIdeal := by
  intro m ρ m' ρ' _ hagree
  refine ⟨fun c => Cert.ReferenceIdeal.ReadP.val_main_v172 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.result m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨g0, g1, g2, g3, g4, g5, g6, g7, g8, g9, g10⟩ := hagree c
    rw [Cert.ReferenceIdeal.RefResult.result_eq, g0, g1, g2, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
